-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x256 : Shape := ⟨4, ![1, 512, 512, 256]⟩
abbrev S1x512 : Shape := ⟨2, ![1, 512]⟩
abbrev S_ : Shape := ⟨0, ![]⟩

class Facts : Prop where
  bcast_S_S1x512x512x256 : S_.BroadcastsInDim S1x512x512x256 (![] : Fin 0 → Fin S1x512x512x256.rank)
  reducesTo_S1x512x512x256_S_d0_1_2_3 : S1x512x512x256.ReducesTo [0, 1, 2, 3] S_
  h_S_ : 0 < S_.numel

variable [Facts]

def fn {F : FTy → Type} [FloatOps F] (main_arg0 : FVec F S1x512x512x256 .f32) (main_arg1 : IVec S1x512 32) (main_arg2 : IVec S1x512 32) : IVec S_ 1 :=
  let main_v0 : FVec F S1x512x512x256 .f32 := Host.absf main_arg0
  let main_cst : FVec F S_ .f32 := constant S_ .f32 0x7F800000#32
  let main_v1 : FVec F S1x512x512x256 .f32 := broadcastInDim S1x512x512x256 ![] bcast_S_S1x512x512x256 main_cst
  let main_v2 : IVec S1x512x512x256 1 := cmpf .olt main_v0 main_v1
  let main_c : IVec S_ 1 := constantI S_ 1 1#1
  let main_v3 : IVec S_ 1 := (fun x v => Host.reduce IntOp.andi x v reducesTo_S1x512x512x256_S_d0_1_2_3 h_S_) main_v2 main_c
  main_v3
-- ==== Kernel.lean ====
abbrev S1x512x512x256 : Shape := ⟨4, ![1, 512, 512, 256]⟩
abbrev S1x512 : Shape := ⟨2, ![1, 512]⟩
abbrev S512x512x256 : Shape := ⟨3, ![512, 512, 256]⟩
abbrev S512 : Shape := ⟨1, ![512]⟩
abbrev S_ : Shape := ⟨0, ![]⟩
abbrev S1 : Shape := ⟨1, ![1]⟩
abbrev S511 : Shape := ⟨1, ![511]⟩
abbrev S512x1 : Shape := ⟨2, ![512, 1]⟩
abbrev S512x512 : Shape := ⟨2, ![512, 512]⟩
abbrev S512x131072 : Shape := ⟨2, ![512, 131072]⟩
abbrev S512x4096 : Shape := ⟨2, ![512, 4096]⟩
abbrev S16x512x256 : Shape := ⟨3, ![16, 512, 256]⟩
abbrev S1x512x256 : Shape := ⟨3, ![1, 512, 256]⟩
abbrev S512x256 : Shape := ⟨2, ![512, 256]⟩

abbrev nBuf : Space → Nat
  | .hbm => 63
  | .vmem => 12
  | .smem => 0
  | _ => 0

abbrev bufTy : (tb : Table) → Fin (tcTables nBuf tb) → BufTy
  | .hbm, ⟨0, _⟩ => ⟨S1x512x512x256, .f32⟩
  | .hbm, ⟨1, _⟩ => ⟨S1x512, .i32⟩
  | .hbm, ⟨2, _⟩ => ⟨S1x512, .i32⟩
  | .hbm, ⟨3, _⟩ => ⟨S512x512x256, .f32⟩
  | .hbm, ⟨4, _⟩ => ⟨S512, .i32⟩
  | .hbm, ⟨5, _⟩ => ⟨S_, .i32⟩
  | .hbm, ⟨6, _⟩ => ⟨S1, .i32⟩
  | .hbm, ⟨7, _⟩ => ⟨S511, .i32⟩
  | .hbm, ⟨8, _⟩ => ⟨S511, .i32⟩
  | .hbm, ⟨9, _⟩ => ⟨S511, .i1⟩
  | .hbm, ⟨10, _⟩ => ⟨S511, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S1, .i32⟩
  | .hbm, ⟨18, _⟩ => ⟨S511, .i32⟩
  | .hbm, ⟨19, _⟩ => ⟨S511, .i32⟩
  | .hbm, ⟨20, _⟩ => ⟨S511, .i1⟩
  | .hbm, ⟨21, _⟩ => ⟨S511, .i32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x512, .bf16⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x512, .bf16⟩
  | .hbm, ⟨58, _⟩ => ⟨S512x131072, .f32⟩
  | .hbm, ⟨59, _⟩ => ⟨S512x131072, .bf16⟩
  | .hbm, ⟨60, _⟩ => ⟨S512x512x256, .bf16⟩
  | .hbm, ⟨61, _⟩ => ⟨S512x512x256, .f32⟩
  | .hbm, ⟨62, _⟩ => ⟨S1x512x512x256, .f32⟩
  | .local _ .vmem, ⟨0, _⟩ => ⟨S512x512, .bf16⟩
  | .local _ .vmem, ⟨1, _⟩ => ⟨S512x1, .f32⟩
  | .local _ .vmem, ⟨2, _⟩ => ⟨S512x4096, .f32⟩
  | .local _ .vmem, ⟨3, _⟩ => ⟨S512x4096, .f32⟩
  | .local _ .vmem, ⟨4, _⟩ => ⟨S512x4096, .bf16⟩
  | .local _ .vmem, ⟨5, _⟩ => ⟨S512x4096, .bf16⟩
  | .local _ .vmem, ⟨6, _⟩ => ⟨S512x512, .bf16⟩
  | .local _ .vmem, ⟨7, _⟩ => ⟨S512x1, .f32⟩
  | .local _ .vmem, ⟨8, _⟩ => ⟨S16x512x256, .bf16⟩
  | .local _ .vmem, ⟨9, _⟩ => ⟨S16x512x256, .bf16⟩
  | .local _ .vmem, ⟨10, _⟩ => ⟨S16x512x256, .f32⟩
  | .local _ .vmem, ⟨11, _⟩ => ⟨S16x512x256, .f32⟩
  | _, _ => ⟨S1x512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_call0_c : Ref sig .tc := ⟨.hbm, 23, rfl⟩
abbrev main_call1_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x512x512x256_S512x512x256 : S1x512x512x256.ShapeCasts S512x512x256
  shapeCasts_S1x512_S512 : S1x512.ShapeCasts S512
  bcast_S_S1 : S_.BroadcastsInDim S1 (![] : Fin 0 → Fin S1.rank)
  slices_S512_S511_1 : S512.Slices ![1] S511
  slices_S512_S511_0 : S512.Slices ![0] S511
  natLt_1_32 : 1 < 32
  concatenates_S1_S511_S512_d0 : Shape.Concatenates [S1, S511] S512 0
  bcast_S_S_ : S_.BroadcastsInDim S_ (![] : Fin 0 → Fin S_.rank)
  reduceWindows_S512_S512_w512s1p511_0 : S512.ReduceWindows (![512] : Fin 1 → Nat) ![1] ![511] ![0] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  reducesTo_S512x512_S512_d1 : S512x512.ReducesTo [1] S512
  bcast_S_S512x1 : S_.BroadcastsInDim S512x1 (![] : Fin 0 → Fin S512x1.rank)
  bitsLt_bf16_f32 : FTy.bits .bf16 < FTy.bits .f32
  shapeCasts_S512x512x256_S512x131072 : S512x512x256.ShapeCasts S512x131072
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  shapeCasts_S512x131072_S512x512x256 : S512x131072.ShapeCasts S512x512x256
  inb_S16x512x256_S1x512x256_0_0_0 : ∀ a, (![0, 0, 0] : Fin 3 → Nat) a + S1x512x256.size a ≤ S16x512x256.size a
  h_S1x512x256 : 0 < S1x512x256.numel
  shapeCasts_S1x512x256_S512x256 : S1x512x256.ShapeCasts S512x256
  broadcasts_S512x1_S512x256 : S512x1.Broadcasts S512x256
  shapeCasts_S512x256_S1x512x256 : S512x256.ShapeCasts S1x512x256
  inb_S16x512x256_S1x512x256_1_0_0 : ∀ a, (![1, 0, 0] : Fin 3 → Nat) a + S1x512x256.size a ≤ S16x512x256.size a
  inb_S16x512x256_S1x512x256_2_0_0 : ∀ a, (![2, 0, 0] : Fin 3 → Nat) a + S1x512x256.size a ≤ S16x512x256.size a
  inb_S16x512x256_S1x512x256_3_0_0 : ∀ a, (![3, 0, 0] : Fin 3 → Nat) a + S1x512x256.size a ≤ S16x512x256.size a
  inb_S16x512x256_S1x512x256_4_0_0 : ∀ a, (![4, 0, 0] : Fin 3 → Nat) a + S1x512x256.size a ≤ S16x512x256.size a
  inb_S16x512x256_S1x512x256_5_0_0 : ∀ a, (![5, 0, 0] : Fin 3 → Nat) a + S1x512x256.size a ≤ S16x512x256.size a
  inb_S16x512x256_S1x512x256_6_0_0 : ∀ a, (![6, 0, 0] : Fin 3 → Nat) a + S1x512x256.size a ≤ S16x512x256.size a
  inb_S16x512x256_S1x512x256_7_0_0 : ∀ a, (![7, 0, 0] : Fin 3 → Nat) a + S1x512x256.size a ≤ S16x512x256.size a
  inb_S16x512x256_S1x512x256_8_0_0 : ∀ a, (![8, 0, 0] : Fin 3 → Nat) a + S1x512x256.size a ≤ S16x512x256.size a
  inb_S16x512x256_S1x512x256_9_0_0 : ∀ a, (![9, 0, 0] : Fin 3 → Nat) a + S1x512x256.size a ≤ S16x512x256.size a
  inb_S16x512x256_S1x512x256_10_0_0 : ∀ a, (![10, 0, 0] : Fin 3 → Nat) a + S1x512x256.size a ≤ S16x512x256.size a
  inb_S16x512x256_S1x512x256_11_0_0 : ∀ a, (![11, 0, 0] : Fin 3 → Nat) a + S1x512x256.size a ≤ S16x512x256.size a
  inb_S16x512x256_S1x512x256_12_0_0 : ∀ a, (![12, 0, 0] : Fin 3 → Nat) a + S1x512x256.size a ≤ S16x512x256.size a
  inb_S16x512x256_S1x512x256_13_0_0 : ∀ a, (![13, 0, 0] : Fin 3 → Nat) a + S1x512x256.size a ≤ S16x512x256.size a
  inb_S16x512x256_S1x512x256_14_0_0 : ∀ a, (![14, 0, 0] : Fin 3 → Nat) a + S1x512x256.size a ≤ S16x512x256.size a
  inb_S16x512x256_S1x512x256_15_0_0 : ∀ a, (![15, 0, 0] : Fin 3 → Nat) a + S1x512x256.size a ≤ S16x512x256.size a
  bcast_S512x512x256_S1x512x512x256_1_2_3 : S512x512x256.BroadcastsInDim S1x512x512x256 (![1, 2, 3] : Fin 3 → Fin S1x512x512x256.rank)
  dot_S512x512_S512x4096_S512x4096_1_0_0_1_n_n_wf : DotDims.WF S512x512 S512x4096 S512x4096 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x131072.size a
  hwx0_2 : ∀ i : grid0.Coords, EltTy.bits .f32 = 32 ∨ (Rect.block (s := S512x131072) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x131072.size a
  hwx0_3 : ∀ i : grid0.Coords, EltTy.bits .bf16 = 32 ∨ (Rect.block (s := S512x131072) S512x4096.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .bf16 = 32 ∨ (Rect.block (s := S512x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512x256.size a ≤ S512x512x256.size a
  hwx1_2 : ∀ i : grid1.Coords, EltTy.bits .bf16 = 32 ∨ (Rect.block (s := S512x512x256) S16x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x512x256.size a ≤ S512x512x256.size a
  hwx1_3 : ∀ i : grid1.Coords, EltTy.bits .f32 = 32 ∨ (Rect.block (s := S512x512x256) S16x512x256.size (cc1_transform_3 i) (hinb1_3 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v29) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v41) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S16x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S16x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x512x512x256 : Shape := ⟨4, ![1, 512, 512, 256]⟩
abbrev S1x512 : Shape := ⟨2, ![1, 512]⟩
abbrev S512x512x256 : Shape := ⟨3, ![512, 512, 256]⟩
abbrev S512 : Shape := ⟨1, ![512]⟩
abbrev S_ : Shape := ⟨0, ![]⟩
abbrev S1 : Shape := ⟨1, ![1]⟩
abbrev S511 : Shape := ⟨1, ![511]⟩
abbrev S512x1 : Shape := ⟨2, ![512, 1]⟩
abbrev S512x1x1 : Shape := ⟨3, ![512, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S1x512x512x256, .f32⟩
  | .hbm, ⟨1, _⟩ => ⟨S1x512, .i32⟩
  | .hbm, ⟨2, _⟩ => ⟨S1x512, .i32⟩
  | .hbm, ⟨3, _⟩ => ⟨S512x512x256, .f32⟩
  | .hbm, ⟨4, _⟩ => ⟨S512, .i32⟩
  | .hbm, ⟨5, _⟩ => ⟨S_, .i32⟩
  | .hbm, ⟨6, _⟩ => ⟨S1, .i32⟩
  | .hbm, ⟨7, _⟩ => ⟨S511, .i32⟩
  | .hbm, ⟨8, _⟩ => ⟨S511, .i32⟩
  | .hbm, ⟨9, _⟩ => ⟨S511, .i1⟩
  | .hbm, ⟨10, _⟩ => ⟨S511, .i32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S1, .i32⟩
  | .hbm, ⟨18, _⟩ => ⟨S511, .i32⟩
  | .hbm, ⟨19, _⟩ => ⟨S511, .i32⟩
  | .hbm, ⟨20, _⟩ => ⟨S511, .i1⟩
  | .hbm, ⟨21, _⟩ => ⟨S511, .i32⟩
  | .hbm, ⟨22, _⟩ => ⟨S512, .i32⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S_, .f32⟩
  | .hbm, ⟨27, _⟩ => ⟨S512x512x256, .f32⟩
  | .hbm, ⟨28, _⟩ => ⟨S512x1, .i32⟩
  | .hbm, ⟨29, _⟩ => ⟨S512x512x256, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512x1, .i32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512x1x1, .f32⟩
  | .hbm, ⟨40, _⟩ => ⟨S512x512x256, .f32⟩
  | .hbm, ⟨41, _⟩ => ⟨S512x512x256, .f32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S512x512x256, .f32⟩
  | .hbm, ⟨51, _⟩ => ⟨S512x512x256, .f32⟩
  | .hbm, ⟨52, _⟩ => ⟨S_, .f32⟩
  | .hbm, ⟨53, _⟩ => ⟨S512x512x256, .f32⟩
  | .hbm, ⟨54, _⟩ => ⟨S512x1, .i32⟩
  | .hbm, ⟨55, _⟩ => ⟨S512x512x256, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S512, .f32⟩
  | .hbm, ⟨60, _⟩ => ⟨S512x1, .i32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512x1x1, .f32⟩
  | .hbm, ⟨66, _⟩ => ⟨S512x512x256, .f32⟩
  | .hbm, ⟨67, _⟩ => ⟨S512x512x256, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x512x256, .f32⟩
  | .hbm, ⟨77, _⟩ => ⟨S512x512x256, .f32⟩
  | .hbm, ⟨78, _⟩ => ⟨S1x512x512x256, .f32⟩
  | _, _ => ⟨S1x512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_call0_c : Ref sig .tc := ⟨.hbm, 23, rfl⟩
abbrev main_call1_call0_v0 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  shapeCasts_S1x512x512x256_S512x512x256 : S1x512x512x256.ShapeCasts S512x512x256
  shapeCasts_S1x512_S512 : S1x512.ShapeCasts S512
  bcast_S_S1 : S_.BroadcastsInDim S1 (![] : Fin 0 → Fin S1.rank)
  slices_S512_S511_1 : S512.Slices ![1] S511
  slices_S512_S511_0 : S512.Slices ![0] S511
  natLt_1_32 : 1 < 32
  concatenates_S1_S511_S512_d0 : Shape.Concatenates [S1, S511] S512 0
  bcast_S_S_ : S_.BroadcastsInDim S_ (![] : Fin 0 → Fin S_.rank)
  reduceWindows_S512_S512_w512s1p511_0 : S512.ReduceWindows (![512] : Fin 1 → Nat) ![1] ![511] ![0] S512
  h_S_ : 0 < S_.numel
  bcast_S_S512x512x256 : S_.BroadcastsInDim S512x512x256 (![] : Fin 0 → Fin S512x512x256.rank)
  bcast_S512_S512x1_0 : S512.BroadcastsInDim S512x1 (![0] : Fin 1 → Fin S512x1.rank)
  bcast_S_S512 : S_.BroadcastsInDim S512 (![] : Fin 0 → Fin S512.rank)
  bcast_S512_S512x1x1_0 : S512.BroadcastsInDim S512x1x1 (![0] : Fin 1 → Fin S512x1x1.rank)
  bcast_S512x1x1_S512x512x256_0_1_2 : S512x1x1.BroadcastsInDim S512x512x256 (![0, 1, 2] : Fin 3 → Fin S512x512x256.rank)
  transposes_S512x512x256_S512x512x256_1_0_2 : S512x512x256.Transposes [1, 0, 2] S512x512x256
  bcast_S512x512x256_S1x512x512x256_1_2_3 : S512x512x256.BroadcastsInDim S1x512x512x256 (![1, 2, 3] : Fin 3 → Fin S1x512x512x256.rank)
  scatter_S512x512x256_S512x1_S512x512x256_12_0_0_1_wf : ScatterDims.WF S512x512x256 S512x1 S512x512x256 [1, 2] [0] [0] 1
  scatter_S512_S512x1_S512_n_0_0_1_wf : ScatterDims.WF S512 S512x1 S512 [] [0] [0] 1
  gather_S512x512x256_S512x1_S512x512x256_12_0_n_n_0_1_1512256_wf : GatherDims.WF S512x512x256 S512x1 S512x512x256 [1, 2] [0] [] [0] [] 1 ![1, 512, 256]

variable [Facts₀]

def scatter_S512x512x256_S512x1_S512x512x256_12_0_0_1 : ScatterDims S512x512x256 S512x1 S512x512x256 where
  updateWindowDims := [1, 2]
  insertedWindowDims := [0]
  scatterDimsToOperandDims := [0]
  indexVectorDim := 1
  wf := scatter_S512x512x256_S512x1_S512x512x256_12_0_0_1_wf
def scatter_S512_S512x1_S512_n_0_0_1 : ScatterDims S512 S512x1 S512 where
  updateWindowDims := []
  insertedWindowDims := [0]
  scatterDimsToOperandDims := [0]
  indexVectorDim := 1
  wf := scatter_S512_S512x1_S512_n_0_0_1_wf
def gather_S512x512x256_S512x1_S512x512x256_12_0_n_n_0_1_1512256 : GatherDims S512x512x256 S512x1 S512x512x256 where
  offsetDims := [1, 2]
  collapsedSliceDims := [0]
  operandBatchingDims := []
  startIndicesBatchingDims := []
  startIndexMap := [0]
  indexVectorDim := 1
  sliceSizes := ![1, 512, 256]
  wf := gather_S512x512x256_S512x1_S512x512x256_12_0_n_n_0_1_1512256_wf

class Facts : Prop extends Facts₀ where

variable [Facts]
-- ==== Proof.KRun.lean ====
/-
  The idealized kernel program's run with its result named.  The program is nine segments: host operations that build,
  from each mask, the 512×512 same-run matrix and the column of reciprocal run lengths; the row-averaging pipeline (32 grid
  points, one 512×4096 column block each); a reshape; the column-averaging pipeline (32 grid points, sixteen rows each);
  the final broadcast.  Every weakly fair execution ends with every unscoped buffer at the contents the segments' fold
  leaves (`Gen.W9`): the result buffer at that fold, the three arguments as launched.
-/
import proofs.«140911_j5549097747077_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the argument arrays end as launched. -/
theorem run_result : θ_run defs (onTc (τ := τ) (main (F := F))) ⟨m, fun _ => 0, ρ⟩ (fun r => ∀ c : Dev nD,
      r.2.mem ((c.tc : Thread nD τ).loc main_v47) = W9 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v47 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.KRun

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KRows.lean ====
/-
  The row-averaging pipeline's output array as one function of its three input arrays.  The pipeline's 32 grid points
  each take the whole 512×512 weight matrix A, the whole 512×1 column R, and columns 4096·t … 4096·t + 4095 of the
  512×131072 data matrix X, and write back the same columns of the output: entry (p, n) of the output is
  (∑ k, A (p, k) · X (k, n)) · R (p, 0).  The 32 column blocks tile the output, so the array ends at that function everywhere.
-/
import proofs.«140911_j5549097747077_2_alg».proof.Proof.Gen.KernelIdeal.Frame
import proofs.«140911_j5549097747077_2_alg».proof.Proof.LibMatmul
import proofs.«140911_j5549097747077_2_alg».proof.Proof.LibColumn
import Idealize.ShloMosaic.Lib.Pipeline.Value
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

/-- Entry (p, n) of the weighted row sums scaled by row p's factor. -/
def rowsAt (A : S512x512.Idx → EReal) (R : S512x1.Idx → EReal) (X : S512x131072.Idx → EReal) (p : Fin 512) (n : Fin 131072) : EReal :=
  (∑ k : Fin 512, A (ix2 p k) * X (ix2 k n)) * R (ix2 p (0 : Fin 1))

/-- The whole output array. -/
def rowsOut (A : S512x512.Idx → EReal) (R : S512x1.Idx → EReal) (X : S512x131072.Idx → EReal) : S512x131072.Idx → EReal :=
  fun i => rowsAt A R X (i 0) (i 1)

/-- The body's arithmetic at an entry of its block: the block of A times the block of X, scaled by the block of R. -/
theorem pay_apply (x0 : Vec Ideal S512x512 .bf16) (x2 : Vec Ideal S512x4096 .f32) (x6 : Vec Ideal S512x1 .f32) (p : Fin 512) (q : Fin 4096) :
    k0_pay1 (F := Ideal) x0 x2 x6 (ix2 p q) = (∑ k : Fin 512, x0 (ix2 p k) * x2 (ix2 k q)) * x6 (ix2 p (0 : Fin 1)) := by
  unfold k0_pay1
  simp only [shapeCast_self]
  rw [truncf_apply, mulf_apply, Cert.LibColumn.broadcastTo_a1_ab_apply]
  refine congrArg (· * _) ?_
  exact Cert.LibMatmul.matmul_plain_apply Facts₀.dot_S512x512_S512x4096_S512x4096_1_0_0_1_n_n_wf none x0 _ p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: A's and R's blocks are block (0, 0) at every point; X's and the output's are
    block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- A's block at any point is A. -/
theorem blkA (c : Dev nD) (t : Fin cfg0.N) (p k : Fin 512) :
    (iblk0 V c 0 t : Vec Ideal S512x512 .bf16) (ix2 p k) = (V c main_v29 : S512x512.Idx → EReal) (ix2 p k) := by
  obtain ⟨e0, e1, -⟩ := idx_facts t
  unfold iblk0
  rw [View.read_apply]
  show V c main_v29 (((cfg0.win 0).blk t).view.emb (ix2 p k)) = V c main_v29 (ix2 p k)
  refine congrArg _ ?_
  funext a; apply Fin.ext
  match a with
  | ⟨0, _⟩ => show win0_0.index t (0 : Fin 2) * 512 + 1 * p.val = p.val; omega
  | ⟨1, _⟩ => show win0_0.index t (1 : Fin 2) * 512 + 1 * k.val = k.val; omega

/-- R's block at any point is R. -/
theorem blkR (c : Dev nD) (t : Fin cfg0.N) (p : Fin 512) :
    (iblk0 V c 1 t : Vec Ideal S512x1 .f32) (ix2 p (0 : Fin 1)) = (V c main_v28 : S512x1.Idx → EReal) (ix2 p (0 : Fin 1)) := by
  obtain ⟨-, -, e0, e1, -⟩ := idx_facts t
  unfold iblk0
  rw [View.read_apply]
  show V c main_v28 (((cfg0.win 1).blk t).view.emb (ix2 p (0 : Fin 1))) = V c main_v28 (ix2 p (0 : Fin 1))
  refine congrArg _ ?_
  funext a; apply Fin.ext
  match a with
  | ⟨0, _⟩ => show win0_1.index t (0 : Fin 2) * 512 + 1 * p.val = p.val; omega
  | ⟨1, _⟩ => show win0_1.index t (1 : Fin 2) * 1 + 1 * 0 = 0; omega

/-- X's block at point t is columns 4096·t … of X. -/
theorem blkX (c : Dev nD) (t : Fin cfg0.N) (k : Fin 512) (q : Fin 4096) (n : Fin 131072) (hn : n.val = 4096 * t.val + q.val) :
    (iblk0 V c 2 t : Vec Ideal S512x4096 .f32) (ix2 k q) = (V c main_v43 : S512x131072.Idx → EReal) (ix2 k n) := by
  obtain ⟨-, -, -, -, e0, e1, -⟩ := idx_facts t
  unfold iblk0
  rw [View.read_apply]
  show V c main_v43 (((cfg0.win 2).blk t).view.emb (ix2 k q)) = V c main_v43 (ix2 k n)
  refine congrArg _ ?_
  funext a; apply Fin.ext
  match a with
  | ⟨0, _⟩ => show win0_2.index t (0 : Fin 2) * 512 + 1 * k.val = k.val; omega
  | ⟨1, _⟩ => show win0_2.index t (1 : Fin 2) * 4096 + 1 * q.val = n.val; omega

/-- The output's block at point t sits at columns 4096·t … . -/
theorem embO (t : Fin cfg0.N) (p : Fin 512) (q : Fin 4096) (n : Fin 131072) (hn : n.val = 4096 * t.val + q.val) :
    ((cfg0.win 3).blk t).view.emb (ix2 p q) = (ix2 p n : S512x131072.Idx) := by
  obtain ⟨-, -, -, -, -, -, e0, e1⟩ := idx_facts t
  funext a; apply Fin.ext
  match a with
  | ⟨0, _⟩ => show win0_3.index t (0 : Fin 2) * 512 + 1 * p.val = p.val; omega
  | ⟨1, _⟩ => show win0_3.index t (1 : Fin 2) * 4096 + 1 * q.val = n.val; omega

/-- WHAT POINT t WRITES BACK is block t of `rowsOut` of the arrays as the pipeline finds them. -/
theorem flushed_eq (c : Dev nD) (t : Fin cfg0.N) :
    (dat0 V c).flushed 3 t = ((cfg0.win 3).blk t).view.read (Elt Ideal) (rowsOut (V c main_v29) (V c main_v28) (V c main_v43)) := by
  have hN : cfg0.N = 32 := N_0
  show (cfg0.win 3).cut (grid0.coords t) ((dat0 V c).after 3 t) = _
  rw [after0_3]
  unfold out0_3
  rw [View.canon_unit_zero hz]
  simp only [View.ld_unit_zero (S := S512x512) hz, View.ld_unit_zero (S := S512x4096) hz, View.ld_unit_zero (S := S512x1) hz]
  funext j
  obtain ⟨p, q, rfl⟩ : ∃ (p : Fin 512) (q : Fin 4096), j = ix2 p q := ⟨j 0, j 1, eq_ix2 j⟩
  have ht : t.val < 32 := hN ▸ t.isLt
  refine (pay_apply _ _ _ p q).trans ?_
  rw [View.read_apply, embO t p q ⟨4096 * t.val + q.val, by have := q.isLt; omega⟩ rfl]
  show _ = rowsAt _ _ _ p _
  unfold rowsAt
  rw [blkR V c t p]
  refine congrArg (· * _) ?_
  refine Finset.sum_congr rfl fun k _ => ?_
  rw [blkA V c t p k, blkX V c t k q ⟨4096 * t.val + q.val, by have := q.isLt; omega⟩ rfl]

/-- An index of the output is in point t's block iff each coordinate is in the block's range on its axis. -/
theorem mem_blk (t : Fin cfg0.N) (i : S512x131072.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v44).slice (win0_3.rect t)).set ↔ _
  rw [View.set_slice_whole, Rect.mem_set_unit]
  exact Iff.rfl

/-- THE OUTPUT ARRAY after the pipeline: `rowsOut` of the three input arrays. -/
theorem final (c : Dev nD) :
    (dat0 V c).arrAt 3 cfg0.N = rowsOut (V c main_v29) (V c main_v28) (V c main_v43) :=
  (dat0 V c).arrAt_eq_of_cover 3 _ (fun t _ => flushed_eq V c t) fun i => by
    have hN : cfg0.N = 32 := N_0
    have hi1 : (i 1).val < 131072 := (i 1).isLt
    have hi0 : (i 0).val < 512 := (i 0).isLt
    refine ⟨⟨(i 1).val / 4096, by rw [hN]; omega⟩, flush0_3 _, ?_⟩
    rw [mem_blk]
    obtain ⟨-, -, -, -, -, -, e0, e1⟩ := idx_facts ⟨(i 1).val / 4096, by rw [hN]; omega⟩
    intro a
    match a with
    | ⟨0, _⟩ => show win0_3.index _ (0 : Fin 2) * 512 ≤ (i 0).val ∧ (i 0).val < win0_3.index _ (0 : Fin 2) * 512 + 512; rw [e0]; omega
    | ⟨1, _⟩ => show win0_3.index _ (1 : Fin 2) * 4096 ≤ (i 1).val ∧ (i 1).val < win0_3.index _ (1 : Fin 2) * 4096 + 4096; rw [e1]; show (i 1).val / 4096 * 4096 ≤ (i 1).val ∧ (i 1).val < (i 1).val / 4096 * 4096 + 4096; omega

end Cert.KernelIdeal.Rows

end
-- ==== Proof.KCols.lean ====
/-
  The column-averaging pipeline's output array as one function of its three input arrays.  The pipeline's 32 grid points
  each take the whole 512×512 weight matrix B, the whole 512×1 column C, and rows 16·t … 16·t + 15 of the 512×512×256
  data array Y, and write back the same rows of the output: entry (h, w, e) of the output is
  (∑ k, B (w, k) · Y (h, k, e)) · C (w, 0).  Within a point the body treats its sixteen rows one at a time, each by the same
  arithmetic, and stores each through its own row's rectangle; the sixteen rows tile the block and the 32 blocks tile the
  output, so the array ends at that function everywhere.
-/
import proofs.«140911_j5549097747077_2_alg».proof.Proof.Gen.KernelIdeal.Frame
import proofs.«140911_j5549097747077_2_alg».proof.Proof.LibMatmul
import proofs.«140911_j5549097747077_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Cols

open Cert.KernelIdeal Cert.KernelIdeal.Gen
open Idealize.ShloMosaic Idealize.ShloMosaic.TcCoe Idealize.ShloMosaic.ValueIdx Idealize.SL.Sem
open Idealize.ShloMosaic.Pipeline (Dat)

/-- Entry (h, w, e) of the weighted column sums scaled by column w's factor. -/
def colsAt (B : S512x512.Idx → EReal) (Cc : S512x1.Idx → EReal) (Y : S512x512x256.Idx → EReal) (h w : Fin 512) (e : Fin 256) : EReal :=
  (∑ k : Fin 512, B (ix2 w k) * Y (ix3 h k e)) * Cc (ix2 w (0 : Fin 1))

/-- The whole output array. -/
def colsOut (B : S512x512.Idx → EReal) (Cc : S512x1.Idx → EReal) (Y : S512x512x256.Idx → EReal) : S512x512x256.Idx → EReal :=
  fun i => colsAt B Cc Y (i 0) (i 1) (i 2)

/-- One piece's arithmetic: row slab Yi of the data block multiplied from the left by B, each row scaled by the column Cc. -/
def pay (B : FVec Ideal S512x512 .bf16) (Cc : FVec Ideal S512x1 .f32) (Yi : FVec Ideal S1x512x256 .bf16) : FVec Ideal S1x512x256 .f32 :=
  shapeCast S1x512x256 (mulf (matmul dot_S512x512_S512x256_S512x256_1_0_0_1_n_n none B
    (shapeCast S512x256 Yi shapeCasts_S1x512x256_S512x256) (constant S512x256 .f32 0x00000000#32))
    (broadcastTo S512x256 Cc broadcasts_S512x1_S512x256)) shapeCasts_S512x256_S1x512x256

/-- One piece's arithmetic at an entry: the product's entry (w, e), scaled by the column's entry of row w. -/
theorem pay_apply (B : FVec Ideal S512x512 .bf16) (Cc : FVec Ideal S512x1 .f32) (Yi : FVec Ideal S1x512x256 .bf16)
    (u : Fin 1) (w : Fin 512) (e : Fin 256) :
    (pay B Cc Yi (ix3 u w e) : EReal)
      = (∑ k : Fin 512, (B (ix2 w k) : EReal) * (Yi (ix3 (0 : Fin 1) k e) : EReal)) * (Cc (ix2 w (0 : Fin 1)) : EReal) := by
  unfold pay
  rw [shapeCast_ab_1ab_apply, mulf_apply, Cert.LibColumn.broadcastTo_a1_ab_apply]
  refine congrArg (· * _) ?_
  refine (Cert.LibMatmul.matmul_plain_apply Facts₀.dot_S512x512_S512x256_S512x256_1_0_0_1_n_n_wf none B _ w e).trans ?_
  refine Finset.sum_congr rfl fun k _ => ?_
  rw [shapeCast_1ab_ab_apply]

/-- Entry (i, w, e) of the block the body leaves, from the three loaded blocks. -/
def blockAt (x0 : Vec Ideal S512x512 .bf16) (x1 : Vec Ideal S512x1 .f32) (x2 : Vec Ideal S16x512x256 .bf16)
    (i : Fin 16) (w : Fin 512) (e : Fin 256) : EReal :=
  (∑ k : Fin 512, (x0 (ix2 w k) : EReal) * (x2 (ix3 i k e) : EReal)) * (x1 (ix2 w (0 : Fin 1)) : EReal)

/-- The block the body leaves, as one function of the block's index. -/
def blockFn (x0 : Vec Ideal S512x512 .bf16) (x1 : Vec Ideal S512x1 .f32) (x2 : Vec Ideal S16x512x256 .bf16) :
    Vec Ideal S16x512x256 .f32 :=
  fun y => blockAt x0 x1 x2 (y 0) (y 1) (y 2)

/-- The piece stored through the rectangle of row o is the block function on that rectangle. -/
theorem piece_block (o : Nat) (inb : ∀ a, (![o, 0, 0] : Fin 3 → Nat) a + S1x512x256.size a ≤ S16x512x256.size a)
    (x0 : Vec Ideal S512x512 .bf16) (x1 : Vec Ideal S512x1 .f32) (x2 : Vec Ideal S16x512x256 .bf16) (x : S1x512x256.Idx) :
    (pay x0 x1 (View.ld x2 (Rect.unit (s := S16x512x256) ![o, 0, 0] S1x512x256.size inb)) x : EReal)
      = blockFn x0 x1 x2 ((Rect.unit (s := S16x512x256) ![o, 0, 0] S1x512x256.size inb).emb x) := by
  obtain ⟨u, w, e, rfl⟩ : ∃ (u : Fin 1) (w : Fin 512) (e : Fin 256), x = ix3 u w e := ⟨x 0, x 1, x 2, eq_ix3 x⟩
  have hu : u.val = 0 := by omega
  have ho : o < 16 := by have := inb 0; show o + 1 ≤ 16; exact this
  have E : (Rect.unit (s := S16x512x256) ![o, 0, 0] S1x512x256.size inb).emb (ix3 u w e) = ix3 (⟨o, ho⟩ : Fin 16) w e := by
    funext a; apply Fin.ext
    match a with
    | ⟨0, _⟩ => show o + 1 * u.val = o; omega
    | ⟨1, _⟩ => show 0 + 1 * w.val = w.val; omega
    | ⟨2, _⟩ => show 0 + 1 * e.val = e.val; omega
  rw [E]
  refine (pay_apply x0 x1 _ u w e).trans ?_
  show _ = blockAt x0 x1 x2 ⟨o, ho⟩ w e
  unfold blockAt
  refine congrArg (· * _) ?_
  refine Finset.sum_congr rfl fun k _ => ?_
  refine congrArg (_ * ·) ?_
  show x2 _ = x2 _
  refine congrArg x2 ?_
  funext a; apply Fin.ext
  match a with
  | ⟨0, _⟩ => show o + 1 * 0 = o; omega
  | ⟨1, _⟩ => show 0 + 1 * k.val = k.val; omega
  | ⟨2, _⟩ => show 0 + 1 * e.val = e.val; omega

/-- The zero offsets of a rank-two whole-shape access. -/
theorem hz2 : (![0, 0] : Fin 2 → Nat) = fun _ => 0 := funext fun a => by fin_cases a <;> rfl

/-- The sixteen stores together: the buffer after the body is the block function everywhere. -/
theorem out_apply (x0 : Vec Ideal S512x512 .bf16) (x1 : Vec Ideal S512x1 .f32) (x2 : Vec Ideal S16x512x256 .bf16)
    (y : S16x512x256.Idx) : out1_3 (F := Ideal) x0 x1 x2 y = blockFn x0 x1 x2 y := by
  unfold out1_3
  simp only [View.ld_unit_zero (S := S512x512) hz2, View.ld_unit_zero (S := S512x1) hz2]
  simp only [k1_pay1, k1_pay2, k1_pay3, k1_pay4, k1_pay5, k1_pay6, k1_pay7, k1_pay8, k1_pay9, k1_pay10, k1_pay11,
    k1_pay12, k1_pay13, k1_pay14, k1_pay15, k1_pay16, k1_pay17, k1_pay18, k1_pay19, k1_pay20, shapeCast_self]
  refine View.canon_apply_of_pieces (blockFn x0 x1 x2) _ ?_ y (cover1_3 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals exact fun x => piece_block _ _ x0 x1 x2 x

variable (V : (c : Dev nD) → (b : Ref sig .tc) → Buf (Elt Ideal) ((c : Thread nD τ).loc b))

/-- The printed index maps over the grid: B's and the column's blocks are block (0, 0) at every point; the data's and the
    output's are block (t, 0, 0). -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- B's block at any point is B. -/
theorem blkB (c : Dev nD) (t : Fin cfg1.N) (w k : Fin 512) :
    (iblk1 V c 0 t : Vec Ideal S512x512 .bf16) (ix2 w k) = (V c main_v42 : S512x512.Idx → EReal) (ix2 w k) := by
  obtain ⟨e0, e1, -⟩ := idx_facts t
  unfold iblk1
  rw [View.read_apply]
  show V c main_v42 (((cfg1.win 0).blk t).view.emb (ix2 w k)) = V c main_v42 (ix2 w k)
  refine congrArg _ ?_
  funext a; apply Fin.ext
  match a with
  | ⟨0, _⟩ => show win1_0.index t (0 : Fin 2) * 512 + 1 * w.val = w.val; omega
  | ⟨1, _⟩ => show win1_0.index t (1 : Fin 2) * 512 + 1 * k.val = k.val; omega

/-- The column's block at any point is the column. -/
theorem blkC (c : Dev nD) (t : Fin cfg1.N) (w : Fin 512) :
    (iblk1 V c 1 t : Vec Ideal S512x1 .f32) (ix2 w (0 : Fin 1)) = (V c main_v41 : S512x1.Idx → EReal) (ix2 w (0 : Fin 1)) := by
  obtain ⟨-, -, e0, e1, -⟩ := idx_facts t
  unfold iblk1
  rw [View.read_apply]
  show V c main_v41 (((cfg1.win 1).blk t).view.emb (ix2 w (0 : Fin 1))) = V c main_v41 (ix2 w (0 : Fin 1))
  refine congrArg _ ?_
  funext a; apply Fin.ext
  match a with
  | ⟨0, _⟩ => show win1_1.index t (0 : Fin 2) * 512 + 1 * w.val = w.val; omega
  | ⟨1, _⟩ => show win1_1.index t (1 : Fin 2) * 1 + 1 * 0 = 0; omega

/-- The data's block at point t is rows 16·t … 16·t + 15 of the data. -/
theorem blkY (c : Dev nD) (t : Fin cfg1.N) (i : Fin 16) (k : Fin 512) (e : Fin 256) (h : Fin 512) (hh : h.val = 16 * t.val + i.val) :
    (iblk1 V c 2 t : Vec Ideal S16x512x256 .bf16) (ix3 i k e) = (V c main_v45 : S512x512x256.Idx → EReal) (ix3 h k e) := by
  obtain ⟨-, -, -, -, e0, e1, e2, -⟩ := idx_facts t
  unfold iblk1
  rw [View.read_apply]
  show V c main_v45 (((cfg1.win 2).blk t).view.emb (ix3 i k e)) = V c main_v45 (ix3 h k e)
  refine congrArg _ ?_
  funext a; apply Fin.ext
  match a with
  | ⟨0, _⟩ => show win1_2.index t (0 : Fin 3) * 16 + 1 * i.val = h.val; omega
  | ⟨1, _⟩ => show win1_2.index t (1 : Fin 3) * 512 + 1 * k.val = k.val; omega
  | ⟨2, _⟩ => show win1_2.index t (2 : Fin 3) * 256 + 1 * e.val = e.val; omega

/-- The output's block at point t sits at rows 16·t … . -/
theorem embO (t : Fin cfg1.N) (i : Fin 16) (w : Fin 512) (e : Fin 256) (h : Fin 512) (hh : h.val = 16 * t.val + i.val) :
    ((cfg1.win 3).blk t).view.emb (ix3 i w e) = (ix3 h w e : S512x512x256.Idx) := by
  obtain ⟨-, -, -, -, -, -, -, e0, e1, e2⟩ := idx_facts t
  funext a; apply Fin.ext
  match a with
  | ⟨0, _⟩ => show win1_3.index t (0 : Fin 3) * 16 + 1 * i.val = h.val; omega
  | ⟨1, _⟩ => show win1_3.index t (1 : Fin 3) * 512 + 1 * w.val = w.val; omega
  | ⟨2, _⟩ => show win1_3.index t (2 : Fin 3) * 256 + 1 * e.val = e.val; omega

/-- WHAT POINT t WRITES BACK is block t of `colsOut` of the arrays as the pipeline finds them. -/
theorem flushed_eq (c : Dev nD) (t : Fin cfg1.N) :
    (dat1 V c).flushed 3 t = ((cfg1.win 3).blk t).view.read (Elt Ideal) (colsOut (V c main_v42) (V c main_v41) (V c main_v45)) := by
  have hN : cfg1.N = 32 := N_1
  show (cfg1.win 3).cut (grid1.coords t) ((dat1 V c).after 3 t) = _
  rw [after1_3]
  funext j
  obtain ⟨i, w, e, rfl⟩ : ∃ (i : Fin 16) (w : Fin 512) (e : Fin 256), j = ix3 i w e := ⟨j 0, j 1, j 2, eq_ix3 j⟩
  have ht : t.val < 32 := hN ▸ t.isLt
  refine (out_apply _ _ _ (ix3 i w e)).trans ?_
  rw [View.read_apply, embO t i w e ⟨16 * t.val + i.val, by have := i.isLt; omega⟩ rfl]
  show blockAt _ _ _ i w e = colsAt _ _ _ _ w e
  unfold blockAt colsAt
  rw [blkC V c t w]
  refine congrArg (· * _) ?_
  refine Finset.sum_congr rfl fun k _ => ?_
  rw [blkB V c t w k, blkY V c t i k e ⟨16 * t.val + i.val, by have := i.isLt; omega⟩ rfl]

/-- An index of the output is in point t's block iff each coordinate is in the block's range on its axis. -/
theorem mem_blk (t : Fin cfg1.N) (i : S512x512x256.Idx) :
    i ∈ ((cfg1.win 3).blk t).view.set ↔ ∀ a : Fin 3, win1_3.index t a * S16x512x256.size a ≤ (i a).val ∧ (i a).val < win1_3.index t a * S16x512x256.size a + S16x512x256.size a := by
  show i ∈ ((View.whole main_v46).slice (win1_3.rect t)).set ↔ _
  rw [View.set_slice_whole, Rect.mem_set_unit]
  exact Iff.rfl

/-- THE OUTPUT ARRAY after the pipeline: `colsOut` of the three input arrays. -/
theorem final (c : Dev nD) :
    (dat1 V c).arrAt 3 cfg1.N = colsOut (V c main_v42) (V c main_v41) (V c main_v45) :=
  (dat1 V c).arrAt_eq_of_cover 3 _ (fun t _ => flushed_eq V c t) fun i => by
    have hN : cfg1.N = 32 := N_1
    have hi0 : (i 0).val < 512 := (i 0).isLt
    have hi1 : (i 1).val < 512 := (i 1).isLt
    have hi2 : (i 2).val < 256 := (i 2).isLt
    refine ⟨⟨(i 0).val / 16, by rw [hN]; omega⟩, flush1_3 _, ?_⟩
    rw [mem_blk]
    obtain ⟨-, -, -, -, -, -, -, e0, e1, e2⟩ := idx_facts ⟨(i 0).val / 16, by rw [hN]; omega⟩
    intro a
    match a with
    | ⟨0, _⟩ => show win1_3.index _ (0 : Fin 3) * 16 ≤ (i 0).val ∧ (i 0).val < win1_3.index _ (0 : Fin 3) * 16 + 16; rw [e0]; show (i 0).val / 16 * 16 ≤ (i 0).val ∧ (i 0).val < (i 0).val / 16 * 16 + 16; omega
    | ⟨1, _⟩ => show win1_3.index _ (1 : Fin 3) * 512 ≤ (i 1).val ∧ (i 1).val < win1_3.index _ (1 : Fin 3) * 512 + 512; rw [e1]; omega
    | ⟨2, _⟩ => show win1_3.index _ (2 : Fin 3) * 256 ≤ (i 2).val ∧ (i 2).val < win1_3.index _ (2 : Fin 3) * 256 + 256; rw [e2]; omega

end Cert.KernelIdeal.Cols

end
-- ==== Proof.Spec.lean ====
/-
  The mathematics both programs compute, stated once and over no program.

  A 0/1 mask of length 512 cuts an axis into maximal runs of equal value; position k's run is numbered by the count of
  value changes up to k (`segIds`: a running sum of the indicator "the mask changes here", the first indicator zero).
  Averaging along an axis within runs (`stripeMean`) replaces every entry by the mean of the entries whose position lies in
  the same run: the sum of those entries divided by their number (at least one, so the `max … 1` never acts).  The result
  array averages the input first along its rows' axis by the first mask's runs and then along its columns' axis by the
  second mask's runs (`pooled`).  `meanRows` is the same average written as a scatter-add into one slot per run, a
  division by the slot's count, and a gather back (`refOut` applies it along both axes).
-/
import Idealize.ShloMosaic.PureOps
import Idealize.ShloMosaic.PureOps.Ideal
import Idealize.ShloMosaic.Lib.ValueIdx

noncomputable section

namespace Cert.Stripe

open Idealize.ShloMosaic Idealize.ShloMosaic.ValueIdx

abbrev S1x512x512x256 : Shape := ⟨4, ![1, 512, 512, 256]⟩
abbrev S512x512x256 : Shape := ⟨3, ![512, 512, 256]⟩
abbrev S1x512 : Shape := ⟨2, ![1, 512]⟩
abbrev S512 : Shape := ⟨1, ![512]⟩
abbrev S511 : Shape := ⟨1, ![511]⟩
abbrev S1 : Shape := ⟨1, ![1]⟩
abbrev S_ : Shape := ⟨0, ![]⟩
abbrev S512x1 : Shape := ⟨2, ![512, 1]⟩
abbrev S512x1x1 : Shape := ⟨3, ![512, 1, 1]⟩

/-! ## The shape relations the operations below take -/

theorem shapeCasts_S1x512x512x256_S512x512x256 : S1x512x512x256.ShapeCasts S512x512x256 := by decide
theorem shapeCasts_S1x512_S512 : S1x512.ShapeCasts S512 := by decide
theorem bcast_S_S1 : S_.BroadcastsInDim S1 (![] : Fin 0 → Fin S1.rank) := by decide
theorem slices_S512_S511_1 : S512.Slices ![1] S511 := by decide
theorem slices_S512_S511_0 : S512.Slices ![0] S511 := by decide
theorem natLt_1_32 : 1 < 32 := by decide
theorem concatenates_S1_S511_S512_d0 : Shape.Concatenates [S1, S511] S512 0 := by decide
theorem bcast_S_S_ : S_.BroadcastsInDim S_ (![] : Fin 0 → Fin S_.rank) := by decide
theorem reduceWindows_S512_S512_w512s1p511_0 : S512.ReduceWindows (![512] : Fin 1 → Nat) ![1] ![511] ![0] S512 := by decide
theorem h_S_ : 0 < S_.numel := by decide
theorem bcast_S_S512x512x256 : S_.BroadcastsInDim S512x512x256 (![] : Fin 0 → Fin S512x512x256.rank) := by decide
theorem bcast_S512_S512x1_0 : S512.BroadcastsInDim S512x1 (![0] : Fin 1 → Fin S512x1.rank) := by decide
theorem bcast_S_S512 : S_.BroadcastsInDim S512 (![] : Fin 0 → Fin S512.rank) := by decide
theorem bcast_S512_S512x1x1_0 : S512.BroadcastsInDim S512x1x1 (![0] : Fin 1 → Fin S512x1x1.rank) := by decide
theorem bcast_S512x1x1_S512x512x256_0_1_2 : S512x1x1.BroadcastsInDim S512x512x256 (![0, 1, 2] : Fin 3 → Fin S512x512x256.rank) := by decide
theorem transposes_S512x512x256_S512x512x256_1_0_2 : S512x512x256.Transposes [1, 0, 2] S512x512x256 := by decide
theorem bcast_S512x512x256_S1x512x512x256_1_2_3 : S512x512x256.BroadcastsInDim S1x512x512x256 (![1, 2, 3] : Fin 3 → Fin S1x512x512x256.rank) := by decide

/-! ## Run numbers of a mask -/

/-- The indicator "the mask's value at k differs from the one before", zero at position 0. -/
def changes (mask : IVec S1x512 32) : IVec S512 32 :=
  concatenate S512 0
    [⟨S1, broadcastInDim S1 ![] bcast_S_S1 (constantI S_ 32 0#32)⟩,
     ⟨S511, extui 32 (cmpi .ne (extractStridedSlice S511 ![1] (shapeCast S512 mask shapeCasts_S1x512_S512) slices_S512_S511_1)
                               (extractStridedSlice S511 ![0] (shapeCast S512 mask shapeCasts_S1x512_S512) slices_S512_S511_0)) natLt_1_32⟩]
    concatenates_S1_S511_S512_d0

/-- The running sum of an integer vector of length 512: a window of 512 positions ending at k, the positions before the
    vector's start holding zero. -/
def runningSum (v : IVec S512 32) : IVec S512 32 :=
  Host.reduceWindow IntOp.addi ![512] ![1] ![511] ![0] v (broadcastInDim S_ ![] bcast_S_S_ (constantI S_ 32 0#32))
    reduceWindows_S512_S512_w512s1p511_0 h_S_

/-- Position k's run number: how many times the mask has changed value up to k. -/
def segIds (mask : IVec S1x512 32) : IVec S512 32 := runningSum (changes mask)

/-! ## The average within runs, as a closed form over the extended reals -/

/-- The mean of `f` over the positions in position `a`'s run: their sum over their number. -/
def stripeMean (ids : IVec S512 32) (f : Fin 512 → EReal) (a : Fin 512) : EReal :=
  Ideal.div (∑ k : Fin 512, if ids (ix1 k) = ids (ix1 a) then f k else 0)
    (max (∑ k : Fin 512, if ids (ix1 k) = ids (ix1 a) then (1 : EReal) else 0) 1)

/-- The result: averaged within the first mask's runs along axis 1, then within the second mask's runs along axis 2. -/
def pooled (x : S1x512x512x256.Idx → EReal) (hm vm : IVec S1x512 32) : S1x512x512x256.Idx → EReal :=
  fun i => stripeMean (segIds vm)
    (fun w' => stripeMean (segIds hm) (fun h' => x (ix4 (0 : Fin 1) h' w' (i 3))) (i 1)) (i 2)

/-! ## The same average as scatter-add, divide, gather -/

def scat3 : ScatterDims S512x512x256 S512x1 S512x512x256 where
  updateWindowDims := [1, 2]
  insertedWindowDims := [0]
  scatterDimsToOperandDims := [0]
  indexVectorDim := 1
  wf := by decide

def scat1 : ScatterDims S512 S512x1 S512 where
  updateWindowDims := []
  insertedWindowDims := [0]
  scatterDimsToOperandDims := [0]
  indexVectorDim := 1
  wf := by decide

def gath3 : GatherDims S512x512x256 S512x1 S512x512x256 where
  offsetDims := [1, 2]
  collapsedSliceDims := [0]
  operandBatchingDims := []
  startIndicesBatchingDims := []
  startIndexMap := [0]
  indexVectorDim := 1
  sliceSizes := ![1, 512, 256]
  wf := by decide

variable {F : FTy → Type} [FloatOps F]

/-- Slot s of the scatter-add holds the sum of the rows whose run number is s, slot s of the count how many there are;
    row a reads back slot `ids a` of their quotient (a negative run number would first be wrapped by 512). -/
def meanRows (x : FVec F S512x512x256 .f32) (ids : IVec S512 32) : FVec F S512x512x256 .f32 :=
  Host.gather gath3
    (Host.divf
      (Host.scatterAdd scat3 (broadcastInDim S512x512x256 ![] bcast_S_S512x512x256 (constant S_ .f32 0x00000000#32))
        (broadcastInDim S512x1 ![0] bcast_S512_S512x1_0 ids) x)
      (broadcastInDim S512x512x256 ![0, 1, 2] bcast_S512x1x1_S512x512x256_0_1_2
        (broadcastInDim S512x1x1 ![0] bcast_S512_S512x1x1_0
          (maximumf
            (Host.scatterAdd scat1 (broadcastInDim S512 ![] bcast_S_S512 (constant S_ .f32 0x00000000#32))
              (broadcastInDim S512x1 ![0] bcast_S512_S512x1_0 ids)
              (broadcastInDim S512 ![] bcast_S_S512 (constant S_ .f32 0x3F800000#32)))
            (broadcastInDim S512 ![] bcast_S_S512 (constant S_ .f32 0x3F800000#32))))))
    (broadcastInDim S512x1 ![0] bcast_S512_S512x1_0
      (select (cmpi .slt ids (broadcastInDim S512 ![] bcast_S_S512 (constantI S_ 32 0#32)))
        (addi ids (broadcastInDim S512 ![] bcast_S_S512 (constantI S_ 32 512#32)))
        ids))

/-- The scatter / gather form of the result: the leading unit axis dropped, rows averaged, the first two axes swapped,
    rows averaged again (so: columns), swapped back, the unit axis restored. -/
def refOut (x : FVec F S1x512x512x256 .f32) (hm vm : IVec S1x512 32) : FVec F S1x512x512x256 .f32 :=
  broadcastInDim S1x512x512x256 ![1, 2, 3] bcast_S512x512x256_S1x512x512x256_1_2_3
    (transpose S512x512x256 [1, 0, 2]
      (meanRows
        (transpose S512x512x256 [1, 0, 2]
          (meanRows (shapeCast S512x512x256 x shapeCasts_S1x512x512x256_S512x512x256) (segIds hm))
          transposes_S512x512x256_S512x512x256_1_0_2)
        (segIds vm))
      transposes_S512x512x256_S512x512x256_1_0_2)

end Cert.Stripe

end
-- ==== Proof.MeanRows.lean ====
/-
  The scatter-add / divide / gather form of the average within runs, read at one index.

  With run numbers `ids` in [0, 512): update row h of the scatter-add lands in slot `ids h` (the start index read as a
  signed integer, the window coordinates carried over unchanged), so slot (s, b, c) of the sum holds the sum of x (k, b, c)
  over the rows k whose run number is s, and slot s of the count holds the number of such rows.  The gather at (a, b, c)
  reads slot (ids a, b, c) of their quotient (the wrap of a negative run number and the clamp into [0, 511] do nothing on
  [0, 512)), and "run number of k is ids a" is `ids k = ids a` because the signed reading of a word is injective.  That is
  `stripeMean`.
-/
import proofs.«140911_j5549097747077_2_alg».proof.Proof.Spec
import Idealize.ShloMosaic.PureOps.Ideal
import Idealize.ShloMosaic.PureOps.Ideal.Laws
import Idealize.ShloMosaic.Lib.Pipeline.Value
import Idealize.ShloMosaic.Lib.ValueIdx

noncomputable section

namespace Cert.Stripe

open Idealize.ShloMosaic Idealize.ShloMosaic.ValueIdx

/-! ## Where an update of the rank-3 scatter lands -/

/-- On axis 0 the window of update (h, w, e) starts at the index entry of row h, read signed. -/
theorem scat3_start0 (h w : Fin 512) (e : Fin 256) (idx : IVec S512x1 32) :
    scat3.start (ix3 h w e) idx 0 = (idx (ix2 h 0)).toInt := by
  unfold ScatterDims.start
  rw [dif_pos (show (0 : Fin 3) ∈ scat3.scatterDimsToOperandDims from List.mem_singleton.mpr rfl)]
  have hsi : scat3.siIdx (ix3 h w e) ⟨List.idxOf (0 : Fin 3) scat3.scatterDimsToOperandDims,
      List.idxOf_lt_length_iff.2 (List.mem_singleton.mpr rfl)⟩ = ix2 h 0 := by
    funext b; refine Fin.ext ?_
    match b with
    | ⟨0, _⟩ => rfl
    | ⟨1, _⟩ => rfl
  rw [hsi]

/-- Axis 1 is not named by the index map: the window starts at 0 there. -/
theorem scat3_start1 (j : S512x512x256.Idx) (idx : IVec S512x1 32) :
    scat3.start j idx 1 = 0 := by
  unfold ScatterDims.start
  rw [dif_neg (by decide)]

/-- Axis 2 is not named by the index map: the window starts at 0 there. -/
theorem scat3_start2 (j : S512x512x256.Idx) (idx : IVec S512x1 32) :
    scat3.start j idx 2 = 0 := by
  unfold ScatterDims.start
  rw [dif_neg (by decide)]

/-- Axis 0 is an inserted axis: no window coordinate. -/
theorem scat3_window0 (j : S512x512x256.Idx) : scat3.window j 0 = 0 := by
  unfold ScatterDims.window
  rw [dif_neg (by decide)]

/-- The window coordinate on axis 1 is the update's own coordinate w. -/
theorem scat3_window1 (h w : Fin 512) (e : Fin 256) : scat3.window (ix3 h w e) 1 = w.val := by
  unfold ScatterDims.window
  rw [dif_pos (by decide)]
  rfl

/-- The window coordinate on axis 2 is the update's own coordinate e. -/
theorem scat3_window2 (h w : Fin 512) (e : Fin 256) : scat3.window (ix3 h w e) 2 = e.val := by
  unfold ScatterDims.window
  rw [dif_pos (by decide)]
  rfl

/-- Update (h, w, e) lands at (s, b, c) exactly when w = b, e = c and the signed index entry of row h is s; an entry
    outside [0, 512) lands nowhere. -/
theorem scat3_resultIdx_iff (h w : Fin 512) (e : Fin 256) (idx : IVec S512x1 32) (s b : Fin 512) (c : Fin 256) :
    scat3.resultIdx? (ix3 h w e) idx = some (ix3 s b c) ↔
      w = b ∧ e = c ∧ (idx (ix2 h 0)).toInt = (s.val : Int) := by
  unfold ScatterDims.resultIdx?
  split
  · rename_i hall
    rw [Option.some.injEq]
    constructor
    · intro heq
      have h0 := congrArg Fin.val (congrFun heq (0 : Fin 3))
      have h1 := congrArg Fin.val (congrFun heq (1 : Fin 3))
      have h2 := congrArg Fin.val (congrFun heq (2 : Fin 3))
      have a0 := (hall (0 : Fin 3)).1
      change (scat3.start (ix3 h w e) idx 0 + scat3.window (ix3 h w e) 0).toNat = s.val at h0
      change (scat3.start (ix3 h w e) idx 1 + scat3.window (ix3 h w e) 1).toNat = b.val at h1
      change (scat3.start (ix3 h w e) idx 2 + scat3.window (ix3 h w e) 2).toNat = c.val at h2
      rw [scat3_start0, scat3_window0] at h0 a0
      rw [scat3_start1, scat3_window1] at h1
      rw [scat3_start2, scat3_window2] at h2
      refine ⟨Fin.ext (by omega), Fin.ext (by omega), by omega⟩
    · rintro ⟨rfl, rfl, hs⟩
      funext a
      refine Fin.ext ?_
      match a with
      | ⟨0, _⟩ =>
        show (scat3.start (ix3 h w e) idx 0 + scat3.window (ix3 h w e) 0).toNat = s.val
        rw [scat3_start0, scat3_window0]; omega
      | ⟨1, _⟩ =>
        show (scat3.start (ix3 h w e) idx 1 + scat3.window (ix3 h w e) 1).toNat = w.val
        rw [scat3_start1, scat3_window1]; omega
      | ⟨2, _⟩ =>
        show (scat3.start (ix3 h w e) idx 2 + scat3.window (ix3 h w e) 2).toNat = e.val
        rw [scat3_start2, scat3_window2]; omega
  · rename_i hnot
    constructor
    · intro hh; cases hh
    · rintro ⟨rfl, rfl, hs⟩
      exfalso; apply hnot
      intro a
      match a with
      | ⟨0, _⟩ =>
        show 0 ≤ scat3.start (ix3 h w e) idx 0 + scat3.window (ix3 h w e) 0 ∧
          scat3.start (ix3 h w e) idx 0 + scat3.window (ix3 h w e) 0 < (512 : Nat)
        rw [scat3_start0, scat3_window0]; have := s.isLt; omega
      | ⟨1, _⟩ =>
        show 0 ≤ scat3.start (ix3 h w e) idx 1 + scat3.window (ix3 h w e) 1 ∧
          scat3.start (ix3 h w e) idx 1 + scat3.window (ix3 h w e) 1 < (512 : Nat)
        rw [scat3_start1, scat3_window1]; have := w.isLt; omega
      | ⟨2, _⟩ =>
        show 0 ≤ scat3.start (ix3 h w e) idx 2 + scat3.window (ix3 h w e) 2 ∧
          scat3.start (ix3 h w e) idx 2 + scat3.window (ix3 h w e) 2 < (256 : Nat)
        rw [scat3_start2, scat3_window2]; have := e.isLt; omega

/-! ## The sums the two scatter-adds collect in one slot -/

/-- The updates landing at (s, b, c) are the (k, b, c) with signed index entry s at row k: re-index the sum by k. -/
theorem scat3_sum (idx : IVec S512x1 32) (upd : S512x512x256.Idx → EReal) (s b : Fin 512) (c : Fin 256) :
    ∑ j ∈ Finset.univ.filter (fun j => scat3.resultIdx? j idx = some (ix3 s b c)), upd j
      = ∑ k : Fin 512, if (idx (ix2 k 0)).toInt = (s.val : Int) then upd (ix3 k b c) else 0 := by
  rw [← Finset.sum_filter]
  refine Finset.sum_nbij' (fun j => (j 0 : Fin 512)) (fun k => ix3 k b c) ?_ ?_ ?_ ?_ ?_
  · intro j hj
    obtain ⟨h, w, e, rfl⟩ : ∃ (h w : Fin 512) (e : Fin 256), j = ix3 h w e := ⟨j 0, j 1, j 2, eq_ix3 j⟩
    rw [Finset.mem_filter] at hj ⊢
    exact ⟨Finset.mem_univ _, ((scat3_resultIdx_iff h w e idx s b c).1 hj.2).2.2⟩
  · intro k hk
    rw [Finset.mem_filter] at hk ⊢
    exact ⟨Finset.mem_univ _, (scat3_resultIdx_iff k b c idx s b c).2 ⟨rfl, rfl, hk.2⟩⟩
  · intro j hj
    obtain ⟨h, w, e, rfl⟩ : ∃ (h w : Fin 512) (e : Fin 256), j = ix3 h w e := ⟨j 0, j 1, j 2, eq_ix3 j⟩
    rw [Finset.mem_filter] at hj
    obtain ⟨rfl, rfl, _⟩ := (scat3_resultIdx_iff h w e idx s b c).1 hj.2
    rfl
  · intro k _; rfl
  · intro j hj
    obtain ⟨h, w, e, rfl⟩ : ∃ (h w : Fin 512) (e : Fin 256), j = ix3 h w e := ⟨j 0, j 1, j 2, eq_ix3 j⟩
    rw [Finset.mem_filter] at hj
    obtain ⟨rfl, rfl, _⟩ := (scat3_resultIdx_iff h w e idx s b c).1 hj.2
    rfl

/-- The rank-1 scatter: the window of update h starts at the index entry of row h, read signed. -/
theorem scat1_start0 (h : Fin 512) (idx : IVec S512x1 32) :
    scat1.start (ix1 h) idx 0 = (idx (ix2 h 0)).toInt := by
  unfold ScatterDims.start
  rw [dif_pos (show (0 : Fin 1) ∈ scat1.scatterDimsToOperandDims from List.mem_singleton.mpr rfl)]
  have hsi : scat1.siIdx (ix1 h) ⟨List.idxOf (0 : Fin 1) scat1.scatterDimsToOperandDims,
      List.idxOf_lt_length_iff.2 (List.mem_singleton.mpr rfl)⟩ = ix2 h 0 := by
    funext b; refine Fin.ext ?_
    match b with
    | ⟨0, _⟩ => rfl
    | ⟨1, _⟩ => rfl
  rw [hsi]

/-- The rank-1 scatter's one operand axis is inserted: no window coordinate. -/
theorem scat1_window0 (j : S512.Idx) : scat1.window j 0 = 0 := by
  unfold ScatterDims.window
  rw [dif_neg (by decide)]

/-- Update h of the rank-1 scatter lands in slot s exactly when the signed index entry of row h is s. -/
theorem scat1_resultIdx_iff (h : Fin 512) (idx : IVec S512x1 32) (s : Fin 512) :
    scat1.resultIdx? (ix1 h) idx = some (ix1 s) ↔ (idx (ix2 h 0)).toInt = (s.val : Int) := by
  unfold ScatterDims.resultIdx?
  split
  · rename_i hall
    rw [Option.some.injEq]
    constructor
    · intro heq
      have h0 := congrArg Fin.val (congrFun heq (0 : Fin 1))
      have a0 := (hall (0 : Fin 1)).1
      change (scat1.start (ix1 h) idx 0 + scat1.window (ix1 h) 0).toNat = s.val at h0
      rw [scat1_start0, scat1_window0] at h0 a0
      omega
    · intro hs
      funext a
      refine Fin.ext ?_
      match a with
      | ⟨0, _⟩ =>
        show (scat1.start (ix1 h) idx 0 + scat1.window (ix1 h) 0).toNat = s.val
        rw [scat1_start0, scat1_window0]; omega
  · rename_i hnot
    constructor
    · intro hh; cases hh
    · intro hs
      exfalso; apply hnot
      intro a
      match a with
      | ⟨0, _⟩ =>
        show 0 ≤ scat1.start (ix1 h) idx 0 + scat1.window (ix1 h) 0 ∧
          scat1.start (ix1 h) idx 0 + scat1.window (ix1 h) 0 < (512 : Nat)
        rw [scat1_start0, scat1_window0]; have := s.isLt; omega

/-- The updates landing in slot s are the rows k with signed index entry s: re-index the sum by k. -/
theorem scat1_sum (idx : IVec S512x1 32) (upd : S512.Idx → EReal) (s : Fin 512) :
    ∑ j ∈ Finset.univ.filter (fun j => scat1.resultIdx? j idx = some (ix1 s)), upd j
      = ∑ k : Fin 512, if (idx (ix2 k 0)).toInt = (s.val : Int) then upd (ix1 k) else 0 := by
  rw [← Finset.sum_filter]
  refine Finset.sum_nbij' (fun j => (j 0 : Fin 512)) (fun k => ix1 k) ?_ ?_ ?_ ?_ ?_
  · intro j hj
    obtain ⟨h, rfl⟩ : ∃ (h : Fin 512), j = ix1 h := ⟨j 0, eq_ix1 j⟩
    rw [Finset.mem_filter] at hj ⊢
    exact ⟨Finset.mem_univ _, (scat1_resultIdx_iff h idx s).1 hj.2⟩
  · intro k hk
    rw [Finset.mem_filter] at hk ⊢
    exact ⟨Finset.mem_univ _, (scat1_resultIdx_iff k idx s).2 hk.2⟩
  · intro j _
    exact (eq_ix1 j).symm
  · intro k _; rfl
  · intro j _
    obtain ⟨h, rfl⟩ : ∃ (h : Fin 512), j = ix1 h := ⟨j 0, eq_ix1 j⟩
    rfl

/-! ## The gather and the broadcasts, read at an index -/

/-- The gather at (a, b, c) reads the operand at (the signed start index of row a clamped into [0, 511], b, c): axis 0
    is collapsed and carries the start, axes 1 and 2 carry the offset coordinates, and there are no batching axes. -/
theorem gath3_operandIdx (a b : Fin 512) (c : Fin 256) (idx : IVec S512x1 32) :
    gath3.operandIdx (ix3 a b c) idx = ix3 ⟨min (idx (ix2 a 0)).toInt.toNat 511, by omega⟩ b c := by
  funext ax
  refine Fin.ext ?_
  match ax with
  | ⟨0, _⟩ =>
    show gath3.start (ix3 a b c) idx 0 + gath3.batchCoord (ix3 a b c) 0 + gath3.offCoord (ix3 a b c) 0 = _
    rw [GatherDims.batchCoord_eq_zero _ _ _ List.not_mem_nil, GatherDims.offCoord_eq_zero _ _ _ (by decide)]
    simp only [Nat.add_zero]
    unfold GatherDims.start
    rw [dif_pos (show (0 : Fin 3) ∈ gath3.startIndexMap from List.mem_singleton.mpr rfl)]
    have hsi : gath3.siIdx (ix3 a b c) ⟨List.idxOf (0 : Fin 3) gath3.startIndexMap,
        List.idxOf_lt_length_iff.2 (List.mem_singleton.mpr rfl)⟩ = ix2 a 0 := by
      funext b'; refine Fin.ext ?_
      match b' with
      | ⟨0, _⟩ => rfl
      | ⟨1, _⟩ => rfl
    rw [hsi]
    rfl
  | ⟨1, _⟩ =>
    show gath3.start (ix3 a b c) idx 1 + gath3.batchCoord (ix3 a b c) 1 + gath3.offCoord (ix3 a b c) 1 = b.val
    have hs : gath3.start (ix3 a b c) idx 1 = 0 := by unfold GatherDims.start; rw [dif_neg (by decide)]
    have ho : gath3.offCoord (ix3 a b c) 1 = b.val := by
      unfold GatherDims.offCoord; rw [dif_pos (by decide)]; rfl
    rw [GatherDims.batchCoord_eq_zero _ _ _ List.not_mem_nil, hs, ho]; omega
  | ⟨2, _⟩ =>
    show gath3.start (ix3 a b c) idx 2 + gath3.batchCoord (ix3 a b c) 2 + gath3.offCoord (ix3 a b c) 2 = c.val
    have hs : gath3.start (ix3 a b c) idx 2 = 0 := by unfold GatherDims.start; rw [dif_neg (by decide)]
    have ho : gath3.offCoord (ix3 a b c) 2 = c.val := by
      unfold GatherDims.offCoord; rw [dif_pos (by decide)]; rfl
    rw [GatherDims.batchCoord_eq_zero _ _ _ List.not_mem_nil, hs, ho]; omega

/-- The gather read at (a, b, c). -/
theorem gather_gath3_apply {α : Type} (y : S512x512x256.Idx → α) (idx : IVec S512x1 32) (a b : Fin 512) (c : Fin 256) :
    Host.gather gath3 y idx (ix3 a b c) = y (ix3 ⟨min (idx (ix2 a 0)).toInt.toNat 511, by omega⟩ b c) := by
  unfold Host.gather
  rw [gath3_operandIdx]

/-- A length-512 vector laid out as a 512 × 1 column reads entry a at (a, ·). -/
theorem bcast_col {α : Type} (v : S512.Idx → α) (a : Fin 512) (z : Fin 1) :
    broadcastInDim S512x1 ![0] bcast_S512_S512x1_0 v (ix2 a z) = v (ix1 a) := by
  refine broadcastInDim_apply _ _ _ _ _ ?_
  intro ax
  match ax with
  | ⟨0, _⟩ => rfl

/-- A length-512 vector broadcast over the two trailing axes reads entry s at every (s, b, c). -/
theorem bcast_slot {α : Type} (m : S512.Idx → α) (s b : Fin 512) (c : Fin 256) :
    broadcastInDim S512x512x256 ![0, 1, 2] bcast_S512x1x1_S512x512x256_0_1_2
      (broadcastInDim S512x1x1 ![0] bcast_S512_S512x1x1_0 m) (ix3 s b c) = m (ix1 s) := by
  rw [broadcastInDim_apply _ _ _ _ (ix3 s (0 : Fin 1) (0 : Fin 1)) (by
    intro ax
    match ax with
    | ⟨0, _⟩ => rfl
    | ⟨1, _⟩ => rfl
    | ⟨2, _⟩ => rfl)]
  refine broadcastInDim_apply _ _ _ _ _ ?_
  intro ax
  match ax with
  | ⟨0, _⟩ => rfl

/-! ## The constants, the select, and the two scatter-adds at a slot -/

/-- The word 0x3F800000 is the real one: exponent field 127, fraction 0, so 2^23 · 2^(127 − 127 − 23). -/
theorem ofBits_one_f32 : Ideal.ofBits .f32 0x3F800000#32 = 1 := by
  simp [Ideal.ofBits, Ideal.ieee]
  rw [← EReal.coe_mul]
  norm_num

/-- On a non-negative run number the comparison with zero is false, so the select keeps the run number itself. -/
theorem sel_ids (ids : IVec S512 32) (a : Fin 512) (h0 : 0 ≤ (ids (ix1 a)).toInt) :
    select (cmpi .slt ids (broadcastInDim S512 ![] bcast_S_S512 (constantI S_ 32 0#32)))
        (addi ids (broadcastInDim S512 ![] bcast_S_S512 (constantI S_ 32 512#32)))
        ids (ix1 a) = ids (ix1 a) := by
  rw [select_apply]
  have hc : cmpi .slt ids (broadcastInDim S512 ![] bcast_S_S512 (constantI S_ 32 0#32)) (ix1 a) = 0#1 := by
    show BitVec.ofBool ((ids (ix1 a)).slt 0#32) = 0#1
    have : (ids (ix1 a)).slt 0#32 = false := by
      rw [BitVec.slt_eq_decide]
      simp only [BitVec.toInt_zero, decide_eq_false_iff_not]
      omega
    rw [this]; rfl
  rw [hc, select_zero]

/-- Slot (s, b, c) of the scatter-add into zeros: the sum of x (k, b, c) over the rows k with run number s. -/
theorem num_apply (x : FVec Ideal S512x512x256 .f32) (ids : IVec S512 32) (s b : Fin 512) (c : Fin 256) :
    Host.scatterAdd scat3 (broadcastInDim S512x512x256 ![] bcast_S_S512x512x256 (constant S_ .f32 0x00000000#32))
        (broadcastInDim S512x1 ![0] bcast_S512_S512x1_0 ids) x (ix3 s b c)
      = ∑ k : Fin 512, if (ids (ix1 k)).toInt = (s.val : Int) then x (ix3 k b c) else 0 := by
  show Ideal.ofBits .f32 0x00000000#32 + ∑ j ∈ Finset.univ.filter (fun j => scat3.resultIdx? j
    (broadcastInDim S512x1 ![0] bcast_S512_S512x1_0 ids) = some (ix3 s b c)), x j = _
  rw [Ideal.ofBits_zero_f32, zero_add, scat3_sum]
  refine Finset.sum_congr rfl fun k _ => ?_
  rw [bcast_col]

/-- Slot s of the scatter-add of ones into zeros: the number of rows k with run number s. -/
theorem den_apply (ids : IVec S512 32) (s : Fin 512) :
    Host.scatterAdd (F := Ideal) scat1 (broadcastInDim S512 ![] bcast_S_S512 (constant S_ .f32 0x00000000#32))
        (broadcastInDim S512x1 ![0] bcast_S512_S512x1_0 ids)
        (broadcastInDim S512 ![] bcast_S_S512 (constant S_ .f32 0x3F800000#32)) (ix1 s)
      = ∑ k : Fin 512, if (ids (ix1 k)).toInt = (s.val : Int) then (1 : EReal) else 0 := by
  show Ideal.ofBits .f32 0x00000000#32 + ∑ j ∈ Finset.univ.filter (fun j => scat1.resultIdx? j
    (broadcastInDim S512x1 ![0] bcast_S512_S512x1_0 ids) = some (ix1 s)),
      (broadcastInDim S512 ![] bcast_S_S512 (constant (F := Ideal) S_ .f32 0x3F800000#32)) j = _
  rw [Ideal.ofBits_zero_f32, zero_add, scat1_sum]
  refine Finset.sum_congr rfl fun k _ => ?_
  rw [bcast_col]
  show (if _ then Ideal.ofBits .f32 0x3F800000#32 else 0) = _
  rw [ofBits_one_f32]

/-! ## Assembly -/

/-- A quotient at an index is the quotient of the elements. -/
theorem hostDivf_apply {s : Shape} {φ : FTy} (x y : FVec Ideal s φ) (i : s.Idx) :
    Host.divf x y i = Ideal.div (x i) (y i) := rfl

/-- The splat of the word 0x3F800000 reads the real one everywhere. -/
theorem ones_apply (i : S512.Idx) :
    broadcastInDim S512 ![] bcast_S_S512 (constant (F := Ideal) S_ .f32 0x3F800000#32) i = 1 := by
  show Ideal.ofBits .f32 0x3F800000#32 = 1
  exact ofBits_one_f32

/-- The gather read at (a, b, c), the clamped start index named as a coordinate s. -/
theorem gather_gath3_at {α : Type} (y : S512x512x256.Idx → α) (idx : IVec S512x1 32) (a b : Fin 512) (c : Fin 256)
    (s : Fin 512) (hs : s.val = min (idx (ix2 a 0)).toInt.toNat 511) :
    Host.gather gath3 y idx (ix3 a b c) = y (ix3 s b c) := by
  rw [gather_gath3_apply]
  congr 2
  exact Fin.ext hs.symm

/-- The scatter-add / divide / gather average at (a, b, c) is the mean of x (·, b, c) over the rows in row a's run. -/
theorem meanRows_apply (x : FVec Ideal S512x512x256 .f32) (ids : IVec S512 32)
    (hr : ∀ k : Fin 512, 0 ≤ (ids (ix1 k)).toInt ∧ (ids (ix1 k)).toInt < 512) (a b : Fin 512) (c : Fin 256) :
    meanRows (F := Ideal) x ids (ix3 a b c) = stripeMean ids (fun k => x (ix3 k b c)) a := by
  obtain ⟨h0, h1⟩ := hr a
  have hlt : (ids (ix1 a)).toInt.toNat < 512 := by omega
  have hiff : ∀ k : Fin 512, (ids (ix1 k)).toInt = (((⟨(ids (ix1 a)).toInt.toNat, hlt⟩ : Fin 512).val : Nat) : Int)
      ↔ ids (ix1 k) = ids (ix1 a) := by
    intro k
    rw [← BitVec.toInt_inj]
    show (ids (ix1 k)).toInt = (((ids (ix1 a)).toInt.toNat : Nat) : Int) ↔ _
    rw [Int.toNat_of_nonneg h0]
  unfold meanRows
  rw [gather_gath3_at _ _ a b c ⟨(ids (ix1 a)).toInt.toNat, hlt⟩ (by
    rw [bcast_col, sel_ids ids a h0]
    show (ids (ix1 a)).toInt.toNat = min (ids (ix1 a)).toInt.toNat 511
    omega)]
  rw [hostDivf_apply, num_apply, bcast_slot, maximumf_apply, den_apply, ones_apply]
  unfold stripeMean
  rw [Finset.sum_congr rfl (fun k _ => if_congr (hiff k) rfl rfl),
    Finset.sum_congr rfl (fun k _ => if_congr (hiff k) rfl rfl)]

end Cert.Stripe

end
-- ==== Proof.KGlue.lean ====
/-
  What the kernel program's host operations build from a vector of run numbers, and the law that makes its weighted sums
  averages.  `sameF32 ids` is the 512×512 matrix with entry (p, k) one when positions p and k carry the same run number
  and zero otherwise; `sameMat` is the same matrix (a change of float format is the identity on the extended reals);
  `recip ids` is the 512×1 column whose entry p is one over the number of positions in p's run (never fewer than one).
  For any values f: the sum over k of `sameMat (a, k) · f k` keeps exactly the entries of a's run (0 · x = 0 and
  1 · x = x on all of the extended reals), and multiplying by one over a positive real count is dividing by it, so the
  weighted sum times `recip` is the mean of f over a's run (`weighted_mean`).
-/
import proofs.«140911_j5549097747077_2_alg».proof.Proof.Spec
import proofs.«140911_j5549097747077_2_alg».proof.Proof.MeanRows
import Idealize.ShloMosaic.PureOps.Ideal
import Idealize.ShloMosaic.PureOps.Ideal.Laws
import Idealize.ShloMosaic.Lib.Pipeline.Value
import Idealize.ShloMosaic.Lib.ValueIdx

noncomputable section

namespace Cert.Stripe

open Idealize.ShloMosaic Idealize.ShloMosaic.ValueIdx

abbrev S512x512 : Shape := ⟨2, ![512, 512]⟩

theorem bcast_S512_S1x512_1 : S512.BroadcastsInDim S1x512 (![1] : Fin 1 → Fin S1x512.rank) := by decide
theorem bcast_S512x1_S512x512_0_1 : S512x1.BroadcastsInDim S512x512 (![0, 1] : Fin 2 → Fin S512x512.rank) := by decide
theorem bcast_S1x512_S512x512_0_1 : S1x512.BroadcastsInDim S512x512 (![0, 1] : Fin 2 → Fin S512x512.rank) := by decide
theorem reducesTo_S512x512_S512_d1 : S512x512.ReducesTo [1] S512 := by decide
theorem reduces_S512x512_S512_d1 : S512x512.Reduces [1] S512 := by decide
theorem bcast_S_S512x1 : S_.BroadcastsInDim S512x1 (![] : Fin 0 → Fin S512x1.rank) := by decide
theorem bitsLt_bf16_f32 : FTy.bits .bf16 < FTy.bits .f32 := by decide

section Defs
variable {F : FTy → Type} [FloatOps F]

/-- Entry (p, k): are positions p and k in the same run? As a float, 1 or 0. -/
def sameF32 (ids : IVec S512 32) : FVec F S512x512 .f32 :=
  uitofp .f32
    (cmpi .eq
      (broadcastInDim S512x512 ![0, 1] bcast_S512x1_S512x512_0_1 (broadcastInDim S512x1 ![0] bcast_S512_S512x1_0 ids))
      (broadcastInDim S512x512 ![0, 1] bcast_S1x512_S512x512_0_1 (broadcastInDim S1x512 ![1] bcast_S512_S1x512_1 ids)))

/-- The same matrix in the narrower float format. -/
def sameMat (ids : IVec S512 32) : FVec F S512x512 .bf16 := truncf .bf16 (sameF32 ids) bitsLt_bf16_f32

/-- Entry (p, 0): one over the size of p's run (the row sum of `sameF32`, at least one). -/
def recip (ids : IVec S512 32) : FVec F S512x1 .f32 :=
  Host.divf (broadcastInDim S512x1 ![] bcast_S_S512x1 (constant S_ .f32 0x3F800000#32))
    (maximumf
      (broadcastInDim S512x1 ![0] bcast_S512_S512x1_0
        (Host.reduceAdd (sameF32 ids) (constant S_ .f32 0x00000000#32) reducesTo_S512x512_S512_d1 h_S_))
      (broadcastInDim S512x1 ![] bcast_S_S512x1 (constant S_ .f32 0x3F800000#32)))

end Defs

/-! ## Read at an entry, on the extended reals -/

theorem bcast_rowIds (ids : IVec S512 32) (p k : Fin 512) :
    broadcastInDim S512x512 ![0, 1] bcast_S512x1_S512x512_0_1 (broadcastInDim S512x1 ![0] bcast_S512_S512x1_0 ids) (ix2 p k)
      = ids (ix1 p) := by
  rw [broadcastInDim_apply _ _ _ _ (ix2 p (0 : Fin 1)) (by
    intro ax
    match ax with
    | ⟨0, _⟩ => rfl
    | ⟨1, _⟩ => rfl)]
  exact bcast_col ids p 0

theorem bcast_colIds (ids : IVec S512 32) (p k : Fin 512) :
    broadcastInDim S512x512 ![0, 1] bcast_S1x512_S512x512_0_1 (broadcastInDim S1x512 ![1] bcast_S512_S1x512_1 ids) (ix2 p k)
      = ids (ix1 k) := by
  rw [broadcastInDim_apply _ _ _ _ (ix2 (0 : Fin 1) k) (by
    intro ax
    match ax with
    | ⟨0, _⟩ => rfl
    | ⟨1, _⟩ => rfl)]
  refine broadcastInDim_apply _ _ _ _ _ ?_
  intro ax
  match ax with
  | ⟨0, _⟩ => rfl

/-- Entry (p, k) of the same-run matrix: one when the run numbers agree, zero otherwise. -/
theorem sameF32_apply (ids : IVec S512 32) (p k : Fin 512) :
    sameF32 (F := Ideal) ids (ix2 p k) = if ids (ix1 k) = ids (ix1 p) then (1 : EReal) else 0 := by
  unfold sameF32
  show FloatOps.uitofp (F := Ideal) .f32 (IntOp.cmpi .eq _ _) = _
  rw [bcast_rowIds, bcast_colIds]
  show (((BitVec.ofBool (ids (ix1 p) == ids (ix1 k))).toNat : ℝ) : EReal) = _
  by_cases h : ids (ix1 k) = ids (ix1 p)
  · rw [if_pos h, h]; simp
  · rw [if_neg h]
    have hb : (ids (ix1 p) == ids (ix1 k)) = false := by
      rw [beq_eq_false_iff_ne]; exact fun e => h e.symm
    rw [hb]; simp

theorem sameMat_apply (ids : IVec S512 32) (p k : Fin 512) :
    sameMat (F := Ideal) ids (ix2 p k) = if ids (ix1 k) = ids (ix1 p) then (1 : EReal) else 0 :=
  sameF32_apply ids p k

/-- Entry (p, ·) of the reciprocal column: one over (the row sum of the same-run matrix, or one if that is larger). -/
theorem recip_apply (ids : IVec S512 32) (p : Fin 512) (z : Fin 1) :
    recip (F := Ideal) ids (ix2 p z)
      = Ideal.div 1 (max (∑ k : Fin 512, if ids (ix1 k) = ids (ix1 p) then (1 : EReal) else 0) 1) := by
  have hone : broadcastInDim S512x1 ![] bcast_S_S512x1 (constant (F := Ideal) S_ .f32 0x3F800000#32) (ix2 p z) = 1 := by
    show Ideal.ofBits .f32 0x3F800000#32 = 1
    exact ofBits_one_f32
  unfold recip
  rw [hostDivf_apply, hone, maximumf_apply, hone, bcast_col]
  refine congrArg (fun v => Ideal.div 1 (max v 1)) ?_
  show Ideal.hostReduceAdd reducesTo_S512x512_S512_d1 (sameF32 (F := Ideal) ids) (Ideal.ofBits .f32 0x00000000#32) (ix1 p) = _
  rw [Ideal.hostReduceAdd_single reducesTo_S512x512_S512_d1 reduces_S512x512_S512_d1, Ideal.ofBits_zero_f32, zero_add]
  refine Finset.sum_congr rfl fun k _ => ?_
  have hl : reduces_S512x512_S512_d1.lift (ix1 p) k = ix2 p k := by
    funext a; apply Fin.ext
    match a with
    | ⟨0, _⟩ => rfl
    | ⟨1, _⟩ => rfl
  rw [hl]
  exact sameF32_apply ids p k

/-! ## The law -/

/-- A sum of zeros and ones is a non-negative real. -/
theorem sum_ind_real {ι : Type} (s : Finset ι) (c : ι → Prop) [DecidablePred c] :
    ∃ r : ℝ, 0 ≤ r ∧ (∑ k ∈ s, if c k then (1 : EReal) else 0) = (r : EReal) := by
  classical
  induction s using Finset.induction_on with
  | empty => exact ⟨0, le_refl _, by simp⟩
  | insert i s hi ih =>
    obtain ⟨r, hr, e⟩ := ih
    rw [Finset.sum_insert hi, e]
    by_cases hc : c i
    · exact ⟨1 + r, by linarith, by rw [if_pos hc, EReal.coe_add]; rfl⟩
    · exact ⟨r, hr, by rw [if_neg hc, zero_add]⟩

/-- THE LAW: the same-run weights times f, summed and rescaled by the reciprocal run length, is f's mean over the run. -/
theorem weighted_mean (ids : IVec S512 32) (f : Fin 512 → EReal) (a : Fin 512) (z : Fin 1) :
    (∑ k : Fin 512, sameMat (F := Ideal) ids (ix2 a k) * f k) * recip (F := Ideal) ids (ix2 a z) = stripeMean ids f a := by
  rw [recip_apply]
  unfold stripeMean
  have h1 : ∀ k, sameMat (F := Ideal) ids (ix2 a k) * f k = if ids (ix1 k) = ids (ix1 a) then f k else 0 := fun k => by
    rw [sameMat_apply]
    split
    · exact one_mul _
    · exact zero_mul _
  rw [Finset.sum_congr rfl fun k _ => h1 k]
  obtain ⟨r, hr, e⟩ := sum_ind_real (Finset.univ : Finset (Fin 512)) (fun k => ids (ix1 k) = ids (ix1 a))
  rw [e]
  have hm : ∃ r' : ℝ, r' ≠ 0 ∧ max (r : EReal) 1 = (r' : EReal) := by
    by_cases h : r ≤ 1
    · refine ⟨1, one_ne_zero, ?_⟩
      rw [max_eq_right (by rw [← EReal.coe_one]; exact EReal.coe_le_coe_iff.mpr h)]
      rfl
    · have h' : 1 ≤ r := le_of_not_ge h
      refine ⟨r, by linarith, ?_⟩
      exact max_eq_left (by rw [← EReal.coe_one]; exact EReal.coe_le_coe_iff.mpr h')
  obtain ⟨r', hne, hm'⟩ := hm
  rw [hm', Ideal.div_coe hne, Ideal.div_coe hne, one_mul]

end Cert.Stripe

end
-- ==== Proof.KHost.lean ====
/-
  The kernel program's host stretches, read back one stretch at a time.  From the launch memory: the first stretch builds
  the change indicator of the first mask and drops the input's unit axis; the second takes its running sum (the first
  mask's run numbers); the third and fourth do the same for the second mask; the fifth builds, from each vector of run
  numbers, the same-run matrix and the reciprocal column, and flattens the input to 512 × 131072.  The row pipeline writes
  only its own output array; the stretch after it reshapes that output to 512 × 512 × 256; the last stretch restores the
  unit axis of the column pipeline's output.
-/
import proofs.«140911_j5549097747077_2_alg».proof.Proof.Gen.KernelIdeal.Frame
import proofs.«140911_j5549097747077_2_alg».proof.Proof.Spec
import proofs.«140911_j5549097747077_2_alg».proof.Proof.KGlue
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Stretch 1: from the launch memory -/

theorem a1 (c : Dev nD) : W1 m ρ c (Proc.devRef .tc main_v7) = Cert.Stripe.changes (m ((c.tc : Thread nD τ).loc main_arg1)) := by
  show StableHlo.after hostOps0 (W0 m ρ c) (Proc.devRef .tc main_v7) = _
  after_results
  rfl

theorem a2 (c : Dev nD) : W1 m ρ c (Proc.devRef .tc main_v0)
    = shapeCast Cert.Stripe.S512x512x256 (m ((c.tc : Thread nD τ).loc main_arg0)) Cert.Stripe.shapeCasts_S1x512x512x256_S512x512x256 := by
  show StableHlo.after hostOps0 (W0 m ρ c) (Proc.devRef .tc main_v0) = _
  after_results
  rfl

theorem a3 (c : Dev nD) : W1 m ρ c (Proc.devRef .tc main_arg2) = m ((c.tc : Thread nD τ).loc main_arg2) := by
  show StableHlo.after hostOps0 (W0 m ρ c) (Proc.devRef .tc main_arg2) = _
  after_results

/-! ## Stretch 2: the first running sum -/

attribute [local irreducible] Host.reduceWindow in
theorem b1 (c : Dev nD) : W2 m ρ c (Proc.devRef .tc main_v8) = Cert.Stripe.runningSum (W1 m ρ c (Proc.devRef .tc main_v7)) := by
  show StableHlo.after hostOps0_1 (W1 m ρ c) (Proc.devRef .tc main_v8) = _
  generalize W1 m ρ c = V
  simp only [after_cons, after_nil]
  rfl

attribute [local irreducible] Host.reduceWindow in
theorem b2 (c : Dev nD) : W2 m ρ c (Proc.devRef .tc main_v0) = W1 m ρ c (Proc.devRef .tc main_v0) := by
  show StableHlo.after hostOps0_1 (W1 m ρ c) (Proc.devRef .tc main_v0) = _
  generalize W1 m ρ c = V
  simp only [after_cons, after_nil]
  rfl

attribute [local irreducible] Host.reduceWindow in
theorem b3 (c : Dev nD) : W2 m ρ c (Proc.devRef .tc main_arg2) = W1 m ρ c (Proc.devRef .tc main_arg2) := by
  show StableHlo.after hostOps0_1 (W1 m ρ c) (Proc.devRef .tc main_arg2) = _
  generalize W1 m ρ c = V
  simp only [after_cons, after_nil]
  rfl

/-! ## Stretch 3: the second mask's change indicator -/

theorem c1 (c : Dev nD) : W3 m ρ c (Proc.devRef .tc main_v15) = Cert.Stripe.changes (W2 m ρ c (Proc.devRef .tc main_arg2)) := by
  show StableHlo.after hostOps0_2 (W2 m ρ c) (Proc.devRef .tc main_v15) = _
  generalize W2 m ρ c = V
  after_results
  rfl

theorem c2 (c : Dev nD) : W3 m ρ c (Proc.devRef .tc main_v8) = W2 m ρ c (Proc.devRef .tc main_v8) := by
  show StableHlo.after hostOps0_2 (W2 m ρ c) (Proc.devRef .tc main_v8) = _
  generalize W2 m ρ c = V
  after_results

theorem c3 (c : Dev nD) : W3 m ρ c (Proc.devRef .tc main_v0) = W2 m ρ c (Proc.devRef .tc main_v0) := by
  show StableHlo.after hostOps0_2 (W2 m ρ c) (Proc.devRef .tc main_v0) = _
  generalize W2 m ρ c = V
  after_results

/-! ## Stretch 4: the second running sum -/

attribute [local irreducible] Host.reduceWindow in
theorem d1 (c : Dev nD) : W4 m ρ c (Proc.devRef .tc main_v16) = Cert.Stripe.runningSum (W3 m ρ c (Proc.devRef .tc main_v15)) := by
  show StableHlo.after hostOps0_3 (W3 m ρ c) (Proc.devRef .tc main_v16) = _
  generalize W3 m ρ c = V
  simp only [after_cons, after_nil]
  rfl

attribute [local irreducible] Host.reduceWindow in
theorem d2 (c : Dev nD) : W4 m ρ c (Proc.devRef .tc main_v8) = W3 m ρ c (Proc.devRef .tc main_v8) := by
  show StableHlo.after hostOps0_3 (W3 m ρ c) (Proc.devRef .tc main_v8) = _
  generalize W3 m ρ c = V
  simp only [after_cons, after_nil]
  rfl

attribute [local irreducible] Host.reduceWindow in
theorem d3 (c : Dev nD) : W4 m ρ c (Proc.devRef .tc main_v0) = W3 m ρ c (Proc.devRef .tc main_v0) := by
  show StableHlo.after hostOps0_3 (W3 m ρ c) (Proc.devRef .tc main_v0) = _
  generalize W3 m ρ c = V
  simp only [after_cons, after_nil]
  rfl

/-! ## Stretch 5: the weights, the reciprocal columns, the flattened input -/

attribute [local irreducible] Host.reduceAdd in
theorem e1 (c : Dev nD) : W5 m ρ c (Proc.devRef .tc main_v29) = Cert.Stripe.sameMat (F := Ideal) (W4 m ρ c (Proc.devRef .tc main_v8)) := by
  show StableHlo.after hostOps0_4 (W4 m ρ c) (Proc.devRef .tc main_v29) = _
  generalize W4 m ρ c = V
  after_results
  rfl

attribute [local irreducible] Host.reduceAdd in
theorem e2 (c : Dev nD) : W5 m ρ c (Proc.devRef .tc main_v28) = Cert.Stripe.recip (F := Ideal) (W4 m ρ c (Proc.devRef .tc main_v8)) := by
  show StableHlo.after hostOps0_4 (W4 m ρ c) (Proc.devRef .tc main_v28) = _
  generalize W4 m ρ c = V
  after_results
  rfl

attribute [local irreducible] Host.reduceAdd in
theorem e3 (c : Dev nD) : W5 m ρ c (Proc.devRef .tc main_v42) = Cert.Stripe.sameMat (F := Ideal) (W4 m ρ c (Proc.devRef .tc main_v16)) := by
  show StableHlo.after hostOps0_4 (W4 m ρ c) (Proc.devRef .tc main_v42) = _
  generalize W4 m ρ c = V
  after_results
  rfl

attribute [local irreducible] Host.reduceAdd in
theorem e4 (c : Dev nD) : W5 m ρ c (Proc.devRef .tc main_v41) = Cert.Stripe.recip (F := Ideal) (W4 m ρ c (Proc.devRef .tc main_v16)) := by
  show StableHlo.after hostOps0_4 (W4 m ρ c) (Proc.devRef .tc main_v41) = _
  generalize W4 m ρ c = V
  after_results
  rfl

theorem e5 (c : Dev nD) : W5 m ρ c (Proc.devRef .tc main_v43)
    = shapeCast S512x131072 (W4 m ρ c (Proc.devRef .tc main_v0) : S512x512x256.Idx → EReal) Facts₀.shapeCasts_S512x512x256_S512x131072 := by
  show StableHlo.after hostOps0_4 (W4 m ρ c) (Proc.devRef .tc main_v43) = _
  generalize W4 m ρ c = V
  after_results
  rfl

/-! ## Across the row pipeline and the stretch after it -/

theorem f2 (c : Dev nD) : W6 m ρ c (Proc.devRef .tc main_v42) = W5 m ρ c (Proc.devRef .tc main_v42) :=
  W6_of_ne m ρ c main_v42 (by decide)

theorem f3 (c : Dev nD) : W6 m ρ c (Proc.devRef .tc main_v41) = W5 m ρ c (Proc.devRef .tc main_v41) :=
  W6_of_ne m ρ c main_v41 (by decide)

theorem g1 (c : Dev nD) : W7 m ρ c (Proc.devRef .tc main_v45)
    = shapeCast S512x512x256 (W6 m ρ c (Proc.devRef .tc main_v44) : S512x131072.Idx → EReal) Facts₀.shapeCasts_S512x131072_S512x512x256 := by
  show StableHlo.after hostOps1 (W6 m ρ c) (Proc.devRef .tc main_v45) = _
  generalize W6 m ρ c = V
  after_results
  rfl

theorem g2 (c : Dev nD) : W7 m ρ c (Proc.devRef .tc main_v42) = W6 m ρ c (Proc.devRef .tc main_v42) := by
  show StableHlo.after hostOps1 (W6 m ρ c) (Proc.devRef .tc main_v42) = _
  generalize W6 m ρ c = V
  after_results

theorem g3 (c : Dev nD) : W7 m ρ c (Proc.devRef .tc main_v41) = W6 m ρ c (Proc.devRef .tc main_v41) := by
  show StableHlo.after hostOps1 (W6 m ρ c) (Proc.devRef .tc main_v41) = _
  generalize W6 m ρ c = V
  after_results

/-! ## The last stretch -/

theorem i1 (c : Dev nD) : W9 m ρ c (Proc.devRef .tc main_v47)
    = broadcastInDim S1x512x512x256 ![1, 2, 3] Facts₀.bcast_S512x512x256_S1x512x512x256_1_2_3
        (W8 m ρ c (Proc.devRef .tc main_v46) : S512x512x256.Idx → EReal) := by
  show StableHlo.after hostOps2 (W8 m ρ c) (Proc.devRef .tc main_v47) = _
  generalize W8 m ρ c = V
  after_results

end Cert.KernelIdeal.KHost

end
-- ==== Proof.SegIds.lean ====
/-
  Run numbers stay inside the axis: position k's run number is a count of value changes among positions 1 … k, so it is
  a natural number at most k ≤ 511; the 32-bit sum never wraps and, read as a signed integer, lies in [0, 512).
-/
import proofs.«140911_j5549097747077_2_alg».proof.Proof.Spec
import Idealize.ShloMosaic.Lib.Pipeline.Value
import Idealize.ShloMosaic.Lib.ValueIdx

noncomputable section

namespace Cert.Stripe

open Idealize.ShloMosaic Idealize.ShloMosaic.ValueIdx

/-! ## A left fold of 32-bit additions, as a sum of natural numbers modulo 2³² -/

/-- The fold of 32-bit addition over a list, read as a natural number, is the accumulator plus the sum of the terms'
    values, reduced modulo 2³². -/
theorem foldl_addi_toNat {ι : Type} (g : ι → BitVec 32) (L : List ι) (r : BitVec 32) :
    (L.foldl (fun r n => IntOp.addi r (g n)) r).toNat = (r.toNat + (L.map fun n => (g n).toNat).sum) % 2 ^ 32 := by
  induction L generalizing r with
  | nil => simp; have := r.isLt; omega
  | cons a L ih =>
    rw [List.foldl_cons, ih]
    show ((r + g a).toNat + _) % 2 ^ 32 = _
    rw [BitVec.toNat_add, List.map_cons, List.sum_cons]
    omega

/-- A sum of N terms, each at most one and one of them (the term at c) zero, is at most N − 1. -/
theorem sum_finRange_le {N : Nat} (f : Fin N → Nat) (c : Fin N) (hf : ∀ n, f n ≤ if n = c then 0 else 1) :
    ((List.finRange N).map f).sum ≤ N - 1 := by
  rw [← Fin.sum_univ_def]
  calc ∑ i, f i ≤ ∑ i : Fin N, (if i = c then 0 else 1) := Finset.sum_le_sum (fun i _ => hf i)
    _ = N - 1 := by
      simp [Finset.sum_ite, Finset.filter_ne', Finset.card_erase_of_mem]

/-! ## The running sum of a 0/1 vector whose first entry is zero -/

/-- An entry of such a vector is at most one, and zero at coordinate zero. -/
theorem entry_toNat_le (v : IVec S512 32) (h0 : v (ix1 (0 : Fin 512)) = 0#32)
    (h1 : ∀ j : Fin 512, (v (ix1 j)).toNat ≤ 1) (idx : S512.Idx) :
    (v idx).toNat ≤ if (idx 0).val = 0 then 0 else 1 := by
  have e : idx = ix1 (idx 0) := eq_ix1 idx
  by_cases hz : (idx 0).val = 0
  · rw [if_pos hz]
    have h00 : idx 0 = (0 : Fin 512) := Fin.ext hz
    rw [e, h00]
    show (v (ix1 (0 : Fin 512))).toNat ≤ 0
    rw [h0]; rfl
  · rw [if_neg hz, e]; exact h1 _

/-- The running sum at k adds, over the window positions n = 0 … 511, the entry at k + n − 511 where that is a
    position of the vector and zero where it is not.  Every term is at most one, and the term at n = 511 − k reads
    entry 0, which is zero: the sum is at most 511, below 2³², so the 32-bit sum is that number. -/
theorem runningSum_toNat_le (v : IVec S512 32) (h0 : v (ix1 (0 : Fin 512)) = 0#32)
    (h1 : ∀ j : Fin 512, (v (ix1 j)).toNat ≤ 1) (k : Fin 512) :
    (runningSum v (ix1 k)).toNat ≤ 511 := by
  unfold runningSum Host.reduceWindow
  dsimp only
  rw [foldl_addi_toNat]
  have hv0 : broadcastInDim S_ ![] bcast_S_S_ (constantI S_ 32 0#32) (Shape.Idx.first h_S_) = 0#32 := rfl
  rw [hv0]
  have hN : (⟨1, ![512]⟩ : Shape).numel = 512 := by decide
  have hc : 511 - k.val < (⟨1, ![512]⟩ : Shape).numel := by rw [hN]; omega
  refine le_trans (Nat.mod_le _ _) ?_
  rw [show (0#32 : BitVec 32).toNat = 0 from rfl, Nat.zero_add]
  refine le_trans (sum_finRange_le _ ⟨511 - k.val, hc⟩ ?_) (by rw [hN])
  intro n
  -- the n-th window position, in row-major order, is n
  have hn : ((⟨1, ![512]⟩ : Shape).rowMajor.symm n 0).val = n.val := by
    have := Shape.rowMajor_val_one ((⟨1, ![512]⟩ : Shape).rowMajor.symm n)
    rw [Equiv.apply_symm_apply] at this
    exact this.symm
  split
  · next hin =>
    -- inside the vector: the entry at k + n − 511
    refine le_trans (entry_toNat_le v h0 h1 _) ?_
    by_cases hnc : n = ⟨511 - k.val, hc⟩
    · rw [if_pos hnc, if_pos]
      show k.val * 1 + ((⟨1, ![512]⟩ : Shape).rowMajor.symm n 0).val - 511 = 0
      rw [hn, hnc]
      show k.val * 1 + (511 - k.val) - 511 = 0
      omega
    · rw [if_neg hnc]
      split <;> omega
  · -- before the vector's start: the initial value, zero
    exact Nat.zero_le _

/-! ## The change indicator is such a vector -/

/-- Entry 0 of the change indicator is the constant zero. -/
theorem changes_zero (mask : IVec S1x512 32) : changes mask (ix1 (0 : Fin 512)) = 0#32 := by
  unfold changes
  exact concatenate_pair_apply_left (t := S512) (s₁ := S1) (s₂ := S511) (0 : Fin 1) _ _
    concatenates_S1_S511_S512_d0 (ix1 (0 : Fin 512)) rfl (ix1 (0 : Fin 1)) (by
      intro b
      match b with
      | ⟨0, _⟩ => rfl)

/-- Every entry of the change indicator is 0 or 1: entry 0 is zero, entry j ≥ 1 is a one-bit comparison result
    zero-extended to 32 bits. -/
theorem changes_le_one (mask : IVec S1x512 32) (j : Fin 512) : (changes mask (ix1 j)).toNat ≤ 1 := by
  by_cases hj : j.val = 0
  · have e : j = (0 : Fin 512) := Fin.ext hj
    rw [e, changes_zero]; decide
  · unfold changes
    rw [concatenate_pair_apply_right (t := S512) (s₁ := S1) (s₂ := S511) (0 : Fin 1) _ _
      concatenates_S1_S511_S512_d0 (ix1 j) rfl rfl (ix1 (⟨j.val - 1, by omega⟩ : Fin 511)) (by
        intro b hb
        match b with
        | ⟨0, _⟩ => exact absurd rfl hb) (by
        show j.val - 1 + 1 = j.val; omega)]
    rw [extui_apply, BitVec.toNat_setWidth]
    generalize cmpi _ _ _ _ = b
    have := b.isLt
    omega

/-! ## Run numbers lie in [0, 512) -/

/-- Position k's run number, as a natural number, is at most 511 < 2³¹, so its signed reading is the same number. -/
theorem segIds_range (mask : IVec S1x512 32) (k : Fin 512) :
    0 ≤ (segIds mask (ix1 k)).toInt ∧ (segIds mask (ix1 k)).toInt < 512 := by
  have h := runningSum_toNat_le (changes mask) (changes_zero mask) (changes_le_one mask) k
  show 0 ≤ (runningSum (changes mask) (ix1 k)).toInt ∧ (runningSum (changes mask) (ix1 k)).toInt < 512
  generalize runningSum (changes mask) (ix1 k) = x at h ⊢
  rw [BitVec.toInt_eq_toNat_of_lt (by omega)]
  omega

end Cert.Stripe

end
-- ==== Proof.RefValue.lean ====
/-
  The scatter / gather form of the result is the closed form.

  Entry (0, h, w, e) of `refOut`: the restored unit axis and the outer swap of the first two axes read entry (w, h, e) of
  the second average, which is the mean over w' in w's run (second mask) of entry (w', h, e) of the swapped first average,
  that is of entry (h, w', e) of the first average; and that is the mean over h' in h's run (first mask) of
  x (0, h', w', e), the dropped unit axis read at 0.  This is `pooled` at (0, h, w, e).
-/
import proofs.«140911_j5549097747077_2_alg».proof.Proof.Spec
import proofs.«140911_j5549097747077_2_alg».proof.Proof.MeanRows
import proofs.«140911_j5549097747077_2_alg».proof.Proof.SegIds
import Idealize.ShloMosaic.Lib.Pipeline.Value
import Idealize.ShloMosaic.Lib.ValueIdx
import Idealize.ShloMosaic.Lib.ValueLayout

noncomputable section

namespace Cert.Stripe

open Idealize.ShloMosaic Idealize.ShloMosaic.ValueIdx

/-! ## The layout steps, read at an index -/

/-- The swap of the first two axes reads, at (w, h, e), the operand at (h, w, e). -/
theorem transpose_102_apply {α : Type} (y : S512x512x256.Idx → α) (w h : Fin 512) (e : Fin 256) :
    transpose S512x512x256 [1, 0, 2] y transposes_S512x512x256_S512x512x256_1_0_2 (ix3 w h e) = y (ix3 h w e) :=
  transpose_apply _ y _ _ _ fun c => match c with | ⟨0, _⟩ => rfl | ⟨1, _⟩ => rfl | ⟨2, _⟩ => rfl

/-- The restored leading unit axis reads, at (u, h, w, e), the operand at (h, w, e). -/
theorem bcast_unit_apply {α : Type} (y : S512x512x256.Idx → α) (u : Fin 1) (h w : Fin 512) (e : Fin 256) :
    broadcastInDim S1x512x512x256 ![1, 2, 3] bcast_S512x512x256_S1x512x512x256_1_2_3 y (ix4 u h w e)
      = y (ix3 h w e) :=
  broadcastInDim_apply _ _ y _ _ fun a => match a with | ⟨0, _⟩ => rfl | ⟨1, _⟩ => rfl | ⟨2, _⟩ => rfl

/-! ## The result -/

/-- Averaging rows by scatter-add, divide and gather, swapping, averaging again and swapping back is the average within
    the first mask's runs along axis 1 followed by the average within the second mask's runs along axis 2. -/
theorem refOut_eq_pooled (x : FVec Ideal S1x512x512x256 .f32) (hm vm : IVec S1x512 32) :
    refOut (F := Ideal) x hm vm = pooled x hm vm := by
  funext i
  obtain ⟨u, h, w, e, rfl⟩ : ∃ (u : Fin 1) (h w : Fin 512) (e : Fin 256), i = ix4 u h w e :=
    ⟨i 0, i 1, i 2, i 3, eq_ix4 i⟩
  unfold refOut
  rw [bcast_unit_apply, transpose_102_apply, meanRows_apply _ _ (segIds_range vm)]
  show _ = stripeMean (segIds vm) (fun w' => stripeMean (segIds hm) (fun h' => x (ix4 (0 : Fin 1) h' w' e)) h) w
  refine congrArg (fun f => stripeMean (segIds vm) f w) (funext fun k => ?_)
  rw [transpose_102_apply, meanRows_apply _ _ (segIds_range hm)]
  refine congrArg (fun f => stripeMean (segIds hm) f h) (funext fun k' => ?_)
  exact shapeCast_1abc_abc_apply x _ k' k e

end Cert.Stripe

end
-- ==== Proof.KForm.lean ====
/-
  The kernel program's result as one closed term, and that term is the closed form.

  `rowsOut A R X` multiplies a 512 × 512 matrix into a 512 × 131072 array and rescales row p by R's entry p; `colsOut` does the
  same along the middle axis of a 512 × 512 × 256 array.  With A, R (and B, Cc) the same-run matrix and the reciprocal run
  lengths of a mask's run numbers, each is an average within runs (`weighted_mean`).  A reshape keeps row-major order, so
  entry (h, k, e) of the 512 × 512 × 256 reading of a 512 × 131072 array is its entry (h, 256·k + e), and back.  Hence entry
  (0, h, w, e) of `kernelOut` is the mean over k in w's run (second mask) of the mean over k' in h's run (first mask) of
  x (0, k', k, e): `pooled`.
-/
import proofs.«140911_j5549097747077_2_alg».proof.Proof.Spec
import proofs.«140911_j5549097747077_2_alg».proof.Proof.KGlue
import proofs.«140911_j5549097747077_2_alg».proof.Proof.RefValue
import Idealize.ShloMosaic.Lib.Pipeline.Value
import Idealize.ShloMosaic.Lib.ValueIdx
import Idealize.ShloMosaic.Lib.ValueLayout

noncomputable section

namespace Cert.Stripe

open Idealize.ShloMosaic Idealize.ShloMosaic.ValueIdx

abbrev S512x131072 : Shape := ⟨2, ![512, 131072]⟩
theorem shapeCasts_S512x512x256_S512x131072 : S512x512x256.ShapeCasts S512x131072 := by decide
theorem shapeCasts_S512x131072_S512x512x256 : S512x131072.ShapeCasts S512x512x256 := by decide
/-- Entry (p, n): the p-th row of A against the n-th column of X, scaled by R's entry p. -/
def rowsOut (A : S512x512.Idx → EReal) (R : S512x1.Idx → EReal) (X : S512x131072.Idx → EReal) : S512x131072.Idx → EReal :=
  fun i => (∑ k : Fin 512, A (ix2 (i 0) k) * X (ix2 k (i 1))) * R (ix2 (i 0) (0 : Fin 1))
/-- Entry (h, w, e): the w-th row of B against column (h, ·, e) of Y, scaled by Cc's entry w. -/
def colsOut (B : S512x512.Idx → EReal) (Cc : S512x1.Idx → EReal) (Y : S512x512x256.Idx → EReal) : S512x512x256.Idx → EReal :=
  fun i => (∑ k : Fin 512, B (ix2 (i 1) k) * Y (ix3 (i 0) k (i 2))) * Cc (ix2 (i 1) (0 : Fin 1))
/-- The kernel program's result as one term of its arguments. -/
def kernelOut (x : FVec Ideal S1x512x512x256 .f32) (hm vm : IVec S1x512 32) : S1x512x512x256.Idx → EReal :=
  broadcastInDim S1x512x512x256 ![1, 2, 3] bcast_S512x512x256_S1x512x512x256_1_2_3
    (colsOut (sameMat (F := Ideal) (segIds vm)) (recip (F := Ideal) (segIds vm))
      (shapeCast S512x512x256
        (rowsOut (sameMat (F := Ideal) (segIds hm)) (recip (F := Ideal) (segIds hm))
          (shapeCast S512x131072 (shapeCast S512x512x256 x shapeCasts_S1x512x512x256_S512x512x256) shapeCasts_S512x512x256_S512x131072))
        shapeCasts_S512x131072_S512x512x256))

/-! ## The two products and the two reshapes, read at an index -/

/-- `rowsOut` at (p, n). -/
theorem rowsOut_apply (A : S512x512.Idx → EReal) (R : S512x1.Idx → EReal) (X : S512x131072.Idx → EReal)
    (p : Fin 512) (n : Fin 131072) :
    rowsOut A R X (ix2 p n) = (∑ k : Fin 512, A (ix2 p k) * X (ix2 k n)) * R (ix2 p (0 : Fin 1)) := rfl

/-- `colsOut` at (h, w, e). -/
theorem colsOut_apply (B : S512x512.Idx → EReal) (Cc : S512x1.Idx → EReal) (Y : S512x512x256.Idx → EReal)
    (h w : Fin 512) (e : Fin 256) :
    colsOut B Cc Y (ix3 h w e) = (∑ k : Fin 512, B (ix2 w k) * Y (ix3 h k e)) * Cc (ix2 w (0 : Fin 1)) := rfl

/-- The 512 × 131072 reading of a 512 × 512 × 256 array: entry (a, 256·b + e) is entry (a, b, e), the row-major position
    (a·512 + b)·256 + e = a·131072 + (256·b + e) being the same. -/
theorem reshape_flat {α : Type} (X3 : S512x512x256.Idx → α) (a b : Fin 512) (e : Fin 256) (n : Fin 131072)
    (hn : n.val = 256 * b.val + e.val) :
    shapeCast S512x131072 X3 shapeCasts_S512x512x256_S512x131072 (ix2 a n) = X3 (ix3 a b e) :=
  shapeCast_apply X3 _ _ _ (by
    rw [Shape.rowMajor_val_three, Shape.rowMajor_val_two]
    show (a.val * 512 + b.val) * 256 + e.val = a.val * 131072 + n.val
    omega)

/-- The 512 × 512 × 256 reading of a 512 × 131072 array: entry (a, b, e) is entry (a, 256·b + e). -/
theorem reshape_unflat {α : Type} (Y2 : S512x131072.Idx → α) (a b : Fin 512) (e : Fin 256) (n : Fin 131072)
    (hn : n.val = 256 * b.val + e.val) :
    shapeCast S512x512x256 Y2 shapeCasts_S512x131072_S512x512x256 (ix3 a b e) = Y2 (ix2 a n) :=
  shapeCast_apply Y2 _ _ _ (by
    rw [Shape.rowMajor_val_three, Shape.rowMajor_val_two]
    show a.val * 131072 + n.val = (a.val * 512 + b.val) * 256 + e.val
    omega)

/-! ## The result -/

/-- The two rescaled products, between reshapes, are the average within the first mask's runs along axis 1 followed by the
    average within the second mask's runs along axis 2. -/
theorem kernelOut_eq_pooled (x : FVec Ideal S1x512x512x256 .f32) (hm vm : IVec S1x512 32) :
    kernelOut x hm vm = pooled x hm vm := by
  funext i
  obtain ⟨u, h, w, e, rfl⟩ : ∃ (u : Fin 1) (h w : Fin 512) (e : Fin 256), i = ix4 u h w e :=
    ⟨i 0, i 1, i 2, i 3, eq_ix4 i⟩
  unfold kernelOut
  rw [bcast_unit_apply, colsOut_apply]
  refine (weighted_mean (segIds vm) _ w 0).trans ?_
  show _ = stripeMean (segIds vm) (fun w' => stripeMean (segIds hm) (fun h' => x (ix4 (0 : Fin 1) h' w' e)) h) w
  refine congrArg (fun f => stripeMean (segIds vm) f w) (funext fun k => ?_)
  have hn : 256 * k.val + e.val < 131072 := by omega
  rw [reshape_unflat _ h k e ⟨256 * k.val + e.val, hn⟩ rfl, rowsOut_apply]
  refine (weighted_mean (segIds hm) _ h 0).trans ?_
  refine congrArg (fun f => stripeMean (segIds hm) f h) (funext fun k' => ?_)
  rw [reshape_flat _ k' k e ⟨256 * k.val + e.val, hn⟩ rfl]
  exact shapeCast_1abc_abc_apply x _ k' k e

end Cert.Stripe

end
-- ==== Proof.KValue.lean ====
/-
  The kernel program's result as the run-wise average of its input.  The last boundary's contents at the result buffer
  are the column pipeline's output with the unit axis restored; that output is the column-weighted sums of the row
  pipeline's output re-read as a 512 × 512 × 256 array; the row pipeline's output is the row-weighted sums of the flattened
  input; the weights and scale columns are the same-run matrices and reciprocal run lengths of the two masks' run numbers.
  Composed, that is one term of the three arguments, and that term is the average within runs along both axes.
-/
import proofs.«140911_j5549097747077_2_alg».proof.Proof.KRun
import proofs.«140911_j5549097747077_2_alg».proof.Proof.KRows
import proofs.«140911_j5549097747077_2_alg».proof.Proof.KCols
import proofs.«140911_j5549097747077_2_alg».proof.Proof.KHost
import proofs.«140911_j5549097747077_2_alg».proof.Proof.KForm

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first mask's run numbers, as the fifth stretch finds them. -/
theorem ids1 (c : Dev nD) :
    W4 m ρ c (Proc.devRef .tc main_v8) = Cert.Stripe.segIds (m ((c.tc : Thread nD τ).loc main_arg1)) := by
  rw [KHost.d2, KHost.c2, KHost.b1, KHost.a1]
  rfl

/-- The second mask's run numbers. -/
theorem ids2 (c : Dev nD) :
    W4 m ρ c (Proc.devRef .tc main_v16) = Cert.Stripe.segIds (m ((c.tc : Thread nD τ).loc main_arg2)) := by
  rw [KHost.d1, KHost.c1, KHost.b3, KHost.a3]
  rfl

/-- The input without its unit axis. -/
theorem x3 (c : Dev nD) :
    W4 m ρ c (Proc.devRef .tc main_v0)
      = shapeCast Cert.Stripe.S512x512x256 (m ((c.tc : Thread nD τ).loc main_arg0)) Cert.Stripe.shapeCasts_S1x512x512x256_S512x512x256 := by
  rw [KHost.d3, KHost.c3, KHost.b2, KHost.a2]

/-- The row pipeline's output array, of the three arguments. -/
theorem rows (c : Dev nD) :
    (W6 m ρ c (Proc.devRef .tc main_v44) : S512x131072.Idx → EReal)
      = Cert.Stripe.rowsOut (Cert.Stripe.sameMat (F := Ideal) (Cert.Stripe.segIds (m ((c.tc : Thread nD τ).loc main_arg1))))
          (Cert.Stripe.recip (F := Ideal) (Cert.Stripe.segIds (m ((c.tc : Thread nD τ).loc main_arg1))))
          (shapeCast Cert.Stripe.S512x131072
            (shapeCast Cert.Stripe.S512x512x256 (m ((c.tc : Thread nD τ).loc main_arg0)) Cert.Stripe.shapeCasts_S1x512x512x256_S512x512x256)
            Cert.Stripe.shapeCasts_S512x512x256_S512x131072) := by
  have hA : V5 m ρ c main_v29 = Cert.Stripe.sameMat (F := Ideal) (Cert.Stripe.segIds (m ((c.tc : Thread nD τ).loc main_arg1))) :=
    (KHost.e1 m ρ c).trans (congrArg _ (ids1 m ρ c))
  have hR : V5 m ρ c main_v28 = Cert.Stripe.recip (F := Ideal) (Cert.Stripe.segIds (m ((c.tc : Thread nD τ).loc main_arg1))) :=
    (KHost.e2 m ρ c).trans (congrArg _ (ids1 m ρ c))
  have hX : V5 m ρ c main_v43 = shapeCast Cert.Stripe.S512x131072
      (shapeCast Cert.Stripe.S512x512x256 (m ((c.tc : Thread nD τ).loc main_arg0)) Cert.Stripe.shapeCasts_S1x512x512x256_S512x512x256)
      Cert.Stripe.shapeCasts_S512x512x256_S512x131072 :=
    (KHost.e5 m ρ c).trans (congrArg (fun v => shapeCast S512x131072 v Facts₀.shapeCasts_S512x512x256_S512x131072) (x3 m ρ c))
  refine ((W6_arr m ρ c 3).trans (Rows.final (V5 m ρ) c)).trans ?_
  rw [hA, hR, hX]
  rfl

/-- THE RESULT BUFFER at the last boundary: the average within runs along both axes. -/
theorem result_eq (c : Dev nD) :
    W9 m ρ c (Proc.devRef .tc main_v47)
      = Cert.Stripe.pooled (m ((c.tc : Thread nD τ).loc main_arg0)) (m ((c.tc : Thread nD τ).loc main_arg1)) (m ((c.tc : Thread nD τ).loc main_arg2)) := by
  have hB : V7 m ρ c main_v42 = Cert.Stripe.sameMat (F := Ideal) (Cert.Stripe.segIds (m ((c.tc : Thread nD τ).loc main_arg2))) :=
    (KHost.g2 m ρ c).trans ((KHost.f2 m ρ c).trans ((KHost.e3 m ρ c).trans (congrArg _ (ids2 m ρ c))))
  have hC : V7 m ρ c main_v41 = Cert.Stripe.recip (F := Ideal) (Cert.Stripe.segIds (m ((c.tc : Thread nD τ).loc main_arg2))) :=
    (KHost.g3 m ρ c).trans ((KHost.f3 m ρ c).trans ((KHost.e4 m ρ c).trans (congrArg _ (ids2 m ρ c))))
  have hY : V7 m ρ c main_v45 = shapeCast S512x512x256 (W6 m ρ c (Proc.devRef .tc main_v44) : S512x131072.Idx → EReal) Facts₀.shapeCasts_S512x131072_S512x512x256 :=
    KHost.g1 m ρ c
  have h46 : (W8 m ρ c (Proc.devRef .tc main_v46) : S512x512x256.Idx → EReal)
      = Cols.colsOut (V7 m ρ c main_v42) (V7 m ρ c main_v41) (V7 m ρ c main_v45) :=
    (W8_arr m ρ c 3).trans (Cols.final (V7 m ρ) c)
  rw [KHost.i1, h46, hB, hC, hY, rows m ρ c, ← Cert.Stripe.kernelOut_eq_pooled]
  rfl

/-- The kernel program's run with its result at the average. -/
theorem run : θ_run defs (onTc (τ := τ) (main (F := Ideal))) ⟨m, fun _ => 0, ρ⟩ (fun r => ∀ c : Dev nD,
      r.2.mem ((c.tc : Thread nD τ).loc main_v47)
        = Cert.Stripe.pooled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (KRun.run_result m ρ)

end Cert.KernelIdeal.KValue

end
-- ==== Proof.RefRun.lean ====
/-
  The run of the reference program. Its @main is a straight line of host operations: the seventy printed in its two
  windows, and at each of the two calls of the running-sum function the callee's three operations (the scalar zero, its
  broadcast to a scalar, the windowed sum) over that call's own buffers, which is what inlining the call leaves. Every
  weakly fair execution of the line terminates with each buffer at the fold of the operations' results over the launch
  contents; read at the result buffer that fold is, operation for operation, the scatter / gather form of the average
  within runs (`Cert.Stripe.refOut`) of the three arguments, and at each argument's buffer what was there.
-/
import proofs.«140911_j5549097747077_2_alg».proof.Proof.Gen.ReferenceIdeal
import proofs.«140911_j5549097747077_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: each call of the running sum is three operations over the
    call's buffers (the scalar zero, its broadcast, the window sum ending at each position). -/
abbrev ops : List (HloOp τ sig (Elt F)) :=
  [ StableHlo.reshape main_arg0 main_v0 rfl shapeCasts_S1x512x512x256_S512x512x256,
    StableHlo.reshape main_arg1 main_v1 rfl shapeCasts_S1x512_S512,
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.unary main_v1 main_v3 ((extractStridedSlice S511 ![1] · slices_S512_S511_1) : (⟨S512, .i32⟩ : BufTy).Contents (Elt F) → (⟨S511, .i32⟩ : BufTy).Contents (Elt F)),
    StableHlo.unary main_v1 main_v4 ((extractStridedSlice S511 ![0] · slices_S512_S511_0) : (⟨S512, .i32⟩ : BufTy).Contents (Elt F) → (⟨S511, .i32⟩ : BufTy).Contents (Elt F)),
    StableHlo.binary main_v3 main_v4 main_v5 (cmpi .ne : (⟨S511, .i32⟩ : BufTy).Contents (Elt F) → (⟨S511, .i32⟩ : BufTy).Contents (Elt F) → (⟨S511, .i1⟩ : BufTy).Contents (Elt F)),
    StableHlo.unary main_v5 main_v6 ((extui 32 · natLt_1_32) : (⟨S511, .i1⟩ : BufTy).Contents (Elt F) → (⟨S511, .i32⟩ : BufTy).Contents (Elt F)),
    StableHlo.binary main_v2 main_v6 main_v7 ((fun a b => concatenate S512 0 [⟨S1, a⟩, ⟨S511, b⟩] concatenates_S1_S511_S512_d0) : (⟨S1, .i32⟩ : BufTy).Contents (Elt F) → (⟨S511, .i32⟩ : BufTy).Contents (Elt F) → (⟨S512, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v7) main_call0.call0.v0 main_call0.call0.v1 (fun x v => Host.reduceWindow IntOp.addi ![512] ![1] ![511] ![0] x v reduceWindows_S512_S512_w512s1p511_0 h_S_),
    StableHlo.reshape main_arg2 main_v9 rfl shapeCasts_S1x512_S512,
    StableHlo.nullary main_c_0 (constantI S_ 32 0#32),
    StableHlo.unary main_c_0 main_v10 (broadcastInDim S1 ![] bcast_S_S1 : (⟨S_, .i32⟩ : BufTy).Contents (Elt F) → (⟨S1, .i32⟩ : BufTy).Contents (Elt F)),
    StableHlo.unary main_v9 main_v11 ((extractStridedSlice S511 ![1] · slices_S512_S511_1) : (⟨S512, .i32⟩ : BufTy).Contents (Elt F) → (⟨S511, .i32⟩ : BufTy).Contents (Elt F)),
    StableHlo.unary main_v9 main_v12 ((extractStridedSlice S511 ![0] · slices_S512_S511_0) : (⟨S512, .i32⟩ : BufTy).Contents (Elt F) → (⟨S511, .i32⟩ : BufTy).Contents (Elt F)),
    StableHlo.binary main_v11 main_v12 main_v13 (cmpi .ne : (⟨S511, .i32⟩ : BufTy).Contents (Elt F) → (⟨S511, .i32⟩ : BufTy).Contents (Elt F) → (⟨S511, .i1⟩ : BufTy).Contents (Elt F)),
    StableHlo.unary main_v13 main_v14 ((extui 32 · natLt_1_32) : (⟨S511, .i1⟩ : BufTy).Contents (Elt F) → (⟨S511, .i32⟩ : BufTy).Contents (Elt F)),
    StableHlo.binary main_v10 main_v14 main_v15 ((fun a b => concatenate S512 0 [⟨S1, a⟩, ⟨S511, b⟩] concatenates_S1_S511_S512_d0) : (⟨S1, .i32⟩ : BufTy).Contents (Elt F) → (⟨S511, .i32⟩ : BufTy).Contents (Elt F) → (⟨S512, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v15) main_call1.call0.v0 main_call1.call0.v1 (fun x v => Host.reduceWindow IntOp.addi ![512] ![1] ![511] ![0] x v reduceWindows_S512_S512_w512s1p511_0 h_S_),
    StableHlo.nullary main_cst (constant S_ .f32 0x00000000#32),
    StableHlo.unary main_cst main_v17 (broadcastInDim S512x512x256 ![] bcast_S_S512x512x256 : (⟨S_, .f32⟩ : BufTy).Contents (Elt F) → (⟨S512x512x256, .f32⟩ : BufTy).Contents (Elt F)),
    StableHlo.unary main_v8 main_v18 (broadcastInDim S512x1 ![0] bcast_S512_S512x1_0 : (⟨S512, .i32⟩ : BufTy).Contents (Elt F) → (⟨S512x1, .i32⟩ : BufTy).Contents (Elt F)),
    StableHlo.ternary main_v17 main_v18 main_v0 main_v19 ((fun x i u => Host.scatterAdd scatter_S512x512x256_S512x1_S512x512x256_12_0_0_1 x i u) : (⟨S512x512x256, .f32⟩ : BufTy).Contents (Elt F) → (⟨S512x1, .i32⟩ : BufTy).Contents (Elt F) → (⟨S512x512x256, .f32⟩ : BufTy).Contents (Elt F) → (⟨S512x512x256, .f32⟩ : BufTy).Contents (Elt F)),
    StableHlo.nullary main_cst_1 (constant S_ .f32 0x3F800000#32),
    StableHlo.unary main_cst_1 main_v20 (broadcastInDim S512 ![] bcast_S_S512 : (⟨S_, .f32⟩ : BufTy).Contents (Elt F) → (⟨S512, .f32⟩ : BufTy).Contents (Elt F)),
    StableHlo.nullary main_cst_2 (constant S_ .f32 0x00000000#32),
    StableHlo.unary main_cst_2 main_v21 (broadcastInDim S512 ![] bcast_S_S512 : (⟨S_, .f32⟩ : BufTy).Contents (Elt F) → (⟨S512, .f32⟩ : BufTy).Contents (Elt F)),
    StableHlo.unary main_v8 main_v22 (broadcastInDim S512x1 ![0] bcast_S512_S512x1_0 : (⟨S512, .i32⟩ : BufTy).Contents (Elt F) → (⟨S512x1, .i32⟩ : BufTy).Contents (Elt F)),
    StableHlo.ternary main_v21 main_v22 main_v20 main_v23 ((fun x i u => Host.scatterAdd scatter_S512_S512x1_S512_n_0_0_1 x i u) : (⟨S512, .f32⟩ : BufTy).Contents (Elt F) → (⟨S512x1, .i32⟩ : BufTy).Contents (Elt F) → (⟨S512, .f32⟩ : BufTy).Contents (Elt F) → (⟨S512, .f32⟩ : BufTy).Contents (Elt F)),
    StableHlo.nullary main_cst_3 (constant S_ .f32 0x3F800000#32),
    StableHlo.unary main_cst_3 main_v24 (broadcastInDim S512 ![] bcast_S_S512 : (⟨S_, .f32⟩ : BufTy).Contents (Elt F) → (⟨S512, .f32⟩ : BufTy).Contents (Elt F)),
    StableHlo.binary main_v23 main_v24 main_v25 (maximumf : (⟨S512, .f32⟩ : BufTy).Contents (Elt F) → (⟨S512, .f32⟩ : BufTy).Contents (Elt F) → (⟨S512, .f32⟩ : BufTy).Contents (Elt F)),
    StableHlo.unary main_v25 main_v26 (broadcastInDim S512x1x1 ![0] bcast_S512_S512x1x1_0 : (⟨S512, .f32⟩ : BufTy).Contents (Elt F) → (⟨S512x1x1, .f32⟩ : BufTy).Contents (Elt F)),
    StableHlo.unary main_v26 main_v27 (broadcastInDim S512x512x256 ![0, 1, 2] bcast_S512x1x1_S512x512x256_0_1_2 : (⟨S512x1x1, .f32⟩ : BufTy).Contents (Elt F) → (⟨S512x512x256, .f32⟩ : BufTy).Contents (Elt F)),
    StableHlo.binary main_v19 main_v27 main_v28 (Host.divf : (⟨S512x512x256, .f32⟩ : BufTy).Contents (Elt F) → (⟨S512x512x256, .f32⟩ : BufTy).Contents (Elt F) → (⟨S512x512x256, .f32⟩ : BufTy).Contents (Elt F)),
    StableHlo.nullary main_c_4 (constantI S_ 32 0#32),
    StableHlo.unary main_c_4 main_v29 (broadcastInDim S512 ![] bcast_S_S512 : (⟨S_, .i32⟩ : BufTy).Contents (Elt F) → (⟨S512, .i32⟩ : BufTy).Contents (Elt F)),
    StableHlo.binary main_v8 main_v29 main_v30 (cmpi .slt : (⟨S512, .i32⟩ : BufTy).Contents (Elt F) → (⟨S512, .i32⟩ : BufTy).Contents (Elt F) → (⟨S512, .i1⟩ : BufTy).Contents (Elt F)),
    StableHlo.nullary main_c_5 (constantI S_ 32 512#32),
    StableHlo.unary main_c_5 main_v31 (broadcastInDim S512 ![] bcast_S_S512 : (⟨S_, .i32⟩ : BufTy).Contents (Elt F) → (⟨S512, .i32⟩ : BufTy).Contents (Elt F)),
    StableHlo.binary main_v8 main_v31 main_v32 (addi : (⟨S512, .i32⟩ : BufTy).Contents (Elt F) → (⟨S512, .i32⟩ : BufTy).Contents (Elt F) → (⟨S512, .i32⟩ : BufTy).Contents (Elt F)),
    StableHlo.ternary main_v30 main_v32 main_v8 main_v33 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v33 main_v34 (broadcastInDim S512x1 ![0] bcast_S512_S512x1_0 : (⟨S512, .i32⟩ : BufTy).Contents (Elt F) → (⟨S512x1, .i32⟩ : BufTy).Contents (Elt F)),
    StableHlo.binary main_v28 main_v34 main_v35 ((fun x i => Host.gather gather_S512x512x256_S512x1_S512x512x256_12_0_n_n_0_1_1512256 x i) : (⟨S512x512x256, .f32⟩ : BufTy).Contents (Elt F) → (⟨S512x1, .i32⟩ : BufTy).Contents (Elt F) → (⟨S512x512x256, .f32⟩ : BufTy).Contents (Elt F)),
    StableHlo.unary main_v35 main_v36 ((transpose S512x512x256 [1, 0, 2] · transposes_S512x512x256_S512x512x256_1_0_2) : (⟨S512x512x256, .f32⟩ : BufTy).Contents (Elt F) → (⟨S512x512x256, .f32⟩ : BufTy).Contents (Elt F)),
    StableHlo.nullary main_cst_6 (constant S_ .f32 0x00000000#32),
    StableHlo.unary main_cst_6 main_v37 (broadcastInDim S512x512x256 ![] bcast_S_S512x512x256 : (⟨S_, .f32⟩ : BufTy).Contents (Elt F) → (⟨S512x512x256, .f32⟩ : BufTy).Contents (Elt F)),
    StableHlo.unary main_v16 main_v38 (broadcastInDim S512x1 ![0] bcast_S512_S512x1_0 : (⟨S512, .i32⟩ : BufTy).Contents (Elt F) → (⟨S512x1, .i32⟩ : BufTy).Contents (Elt F)),
    StableHlo.ternary main_v37 main_v38 main_v36 main_v39 ((fun x i u => Host.scatterAdd scatter_S512x512x256_S512x1_S512x512x256_12_0_0_1 x i u) : (⟨S512x512x256, .f32⟩ : BufTy).Contents (Elt F) → (⟨S512x1, .i32⟩ : BufTy).Contents (Elt F) → (⟨S512x512x256, .f32⟩ : BufTy).Contents (Elt F) → (⟨S512x512x256, .f32⟩ : BufTy).Contents (Elt F)),
    StableHlo.nullary main_cst_7 (constant S_ .f32 0x3F800000#32),
    StableHlo.unary main_cst_7 main_v40 (broadcastInDim S512 ![] bcast_S_S512 : (⟨S_, .f32⟩ : BufTy).Contents (Elt F) → (⟨S512, .f32⟩ : BufTy).Contents (Elt F)),
    StableHlo.nullary main_cst_8 (constant S_ .f32 0x00000000#32),
    StableHlo.unary main_cst_8 main_v41 (broadcastInDim S512 ![] bcast_S_S512 : (⟨S_, .f32⟩ : BufTy).Contents (Elt F) → (⟨S512, .f32⟩ : BufTy).Contents (Elt F)),
    StableHlo.unary main_v16 main_v42 (broadcastInDim S512x1 ![0] bcast_S512_S512x1_0 : (⟨S512, .i32⟩ : BufTy).Contents (Elt F) → (⟨S512x1, .i32⟩ : BufTy).Contents (Elt F)),
    StableHlo.ternary main_v41 main_v42 main_v40 main_v43 ((fun x i u => Host.scatterAdd scatter_S512_S512x1_S512_n_0_0_1 x i u) : (⟨S512, .f32⟩ : BufTy).Contents (Elt F) → (⟨S512x1, .i32⟩ : BufTy).Contents (Elt F) → (⟨S512, .f32⟩ : BufTy).Contents (Elt F) → (⟨S512, .f32⟩ : BufTy).Contents (Elt F)),
    StableHlo.nullary main_cst_9 (constant S_ .f32 0x3F800000#32),
    StableHlo.unary main_cst_9 main_v44 (broadcastInDim S512 ![] bcast_S_S512 : (⟨S_, .f32⟩ : BufTy).Contents (Elt F) → (⟨S512, .f32⟩ : BufTy).Contents (Elt F)),
    StableHlo.binary main_v43 main_v44 main_v45 (maximumf : (⟨S512, .f32⟩ : BufTy).Contents (Elt F) → (⟨S512, .f32⟩ : BufTy).Contents (Elt F) → (⟨S512, .f32⟩ : BufTy).Contents (Elt F)),
    StableHlo.unary main_v45 main_v46 (broadcastInDim S512x1x1 ![0] bcast_S512_S512x1x1_0 : (⟨S512, .f32⟩ : BufTy).Contents (Elt F) → (⟨S512x1x1, .f32⟩ : BufTy).Contents (Elt F)),
    StableHlo.unary main_v46 main_v47 (broadcastInDim S512x512x256 ![0, 1, 2] bcast_S512x1x1_S512x512x256_0_1_2 : (⟨S512x1x1, .f32⟩ : BufTy).Contents (Elt F) → (⟨S512x512x256, .f32⟩ : BufTy).Contents (Elt F)),
    StableHlo.binary main_v39 main_v47 main_v48 (Host.divf : (⟨S512x512x256, .f32⟩ : BufTy).Contents (Elt F) → (⟨S512x512x256, .f32⟩ : BufTy).Contents (Elt F) → (⟨S512x512x256, .f32⟩ : BufTy).Contents (Elt F)),
    StableHlo.nullary main_c_10 (constantI S_ 32 0#32),
    StableHlo.unary main_c_10 main_v49 (broadcastInDim S512 ![] bcast_S_S512 : (⟨S_, .i32⟩ : BufTy).Contents (Elt F) → (⟨S512, .i32⟩ : BufTy).Contents (Elt F)),
    StableHlo.binary main_v16 main_v49 main_v50 (cmpi .slt : (⟨S512, .i32⟩ : BufTy).Contents (Elt F) → (⟨S512, .i32⟩ : BufTy).Contents (Elt F) → (⟨S512, .i1⟩ : BufTy).Contents (Elt F)),
    StableHlo.nullary main_c_11 (constantI S_ 32 512#32),
    StableHlo.unary main_c_11 main_v51 (broadcastInDim S512 ![] bcast_S_S512 : (⟨S_, .i32⟩ : BufTy).Contents (Elt F) → (⟨S512, .i32⟩ : BufTy).Contents (Elt F)),
    StableHlo.binary main_v16 main_v51 main_v52 (addi : (⟨S512, .i32⟩ : BufTy).Contents (Elt F) → (⟨S512, .i32⟩ : BufTy).Contents (Elt F) → (⟨S512, .i32⟩ : BufTy).Contents (Elt F)),
    StableHlo.ternary main_v50 main_v52 main_v16 main_v53 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v53 main_v54 (broadcastInDim S512x1 ![0] bcast_S512_S512x1_0 : (⟨S512, .i32⟩ : BufTy).Contents (Elt F) → (⟨S512x1, .i32⟩ : BufTy).Contents (Elt F)),
    StableHlo.binary main_v48 main_v54 main_v55 ((fun x i => Host.gather gather_S512x512x256_S512x1_S512x512x256_12_0_n_n_0_1_1512256 x i) : (⟨S512x512x256, .f32⟩ : BufTy).Contents (Elt F) → (⟨S512x1, .i32⟩ : BufTy).Contents (Elt F) → (⟨S512x512x256, .f32⟩ : BufTy).Contents (Elt F)),
    StableHlo.unary main_v55 main_v56 ((transpose S512x512x256 [1, 0, 2] · transposes_S512x512x256_S512x512x256_1_0_2) : (⟨S512x512x256, .f32⟩ : BufTy).Contents (Elt F) → (⟨S512x512x256, .f32⟩ : BufTy).Contents (Elt F)),
    StableHlo.unary main_v56 main_v57 (broadcastInDim S1x512x512x256 ![1, 2, 3] bcast_S512x512x256_S1x512x512x256_1_2_3 : (⟨S512x512x256, .f32⟩ : BufTy).Contents (Elt F) → (⟨S1x512x512x256, .f32⟩ : BufTy).Contents (Elt F)) ]

-- seventy-six binds re-associated: the rewrite under the chain recurses once per statement
set_option maxRecDepth 4096 in
set_option maxHeartbeats 1600000 in
/-- @main is that straight line: the two windows and the functions' bodies unfolded at their calls, both sides are one
    chain of steps once sequencing is reassociated. -/
theorem main_eq (c : Dev nD) : main (F := F) c = seq ops := by
  simp only [main, main_part0, main_part1, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., nullary_bufs_sub .., unary_bufs_sub .., unary_bufs_sub .., unary_bufs_sub ..,
    binary_bufs_sub .., unary_bufs_sub .., binary_bufs_sub .., nullary_bufs_sub .., unary_bufs_sub .., binary_bufs_sub ..,
    reshape_bufs_sub .., nullary_bufs_sub .., unary_bufs_sub .., unary_bufs_sub .., unary_bufs_sub .., binary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub ..⟩

/-- For any float values, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in five stages

The value at the result buffer is read stage by stage: each stage's result in terms of the contents before it, and the
buffers a later stage reads that it does not write. -/

/-- The first twelve: the two reshapes and the first mask's run numbers (its change indicator, then the running sum's three). -/
abbrev opsA : List (HloOp τ sig (Elt F)) :=
  [ StableHlo.reshape main_arg0 main_v0 rfl shapeCasts_S1x512x512x256_S512x512x256,
    StableHlo.reshape main_arg1 main_v1 rfl shapeCasts_S1x512_S512,
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.unary main_v1 main_v3 ((extractStridedSlice S511 ![1] · slices_S512_S511_1) : (⟨S512, .i32⟩ : BufTy).Contents (Elt F) → (⟨S511, .i32⟩ : BufTy).Contents (Elt F)),
    StableHlo.unary main_v1 main_v4 ((extractStridedSlice S511 ![0] · slices_S512_S511_0) : (⟨S512, .i32⟩ : BufTy).Contents (Elt F) → (⟨S511, .i32⟩ : BufTy).Contents (Elt F)),
    StableHlo.binary main_v3 main_v4 main_v5 (cmpi .ne : (⟨S511, .i32⟩ : BufTy).Contents (Elt F) → (⟨S511, .i32⟩ : BufTy).Contents (Elt F) → (⟨S511, .i1⟩ : BufTy).Contents (Elt F)),
    StableHlo.unary main_v5 main_v6 ((extui 32 · natLt_1_32) : (⟨S511, .i1⟩ : BufTy).Contents (Elt F) → (⟨S511, .i32⟩ : BufTy).Contents (Elt F)),
    StableHlo.binary main_v2 main_v6 main_v7 ((fun a b => concatenate S512 0 [⟨S1, a⟩, ⟨S511, b⟩] concatenates_S1_S511_S512_d0) : (⟨S1, .i32⟩ : BufTy).Contents (Elt F) → (⟨S511, .i32⟩ : BufTy).Contents (Elt F) → (⟨S512, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v7) main_call0.call0.v0 main_call0.call0.v1 (fun x v => Host.reduceWindow IntOp.addi ![512] ![1] ![511] ![0] x v reduceWindows_S512_S512_w512s1p511_0 h_S_) ]

/-- The next eleven: the second mask's reshape and run numbers. -/
abbrev opsB : List (HloOp τ sig (Elt F)) :=
  [ StableHlo.reshape main_arg2 main_v9 rfl shapeCasts_S1x512_S512,
    StableHlo.nullary main_c_0 (constantI S_ 32 0#32),
    StableHlo.unary main_c_0 main_v10 (broadcastInDim S1 ![] bcast_S_S1 : (⟨S_, .i32⟩ : BufTy).Contents (Elt F) → (⟨S1, .i32⟩ : BufTy).Contents (Elt F)),
    StableHlo.unary main_v9 main_v11 ((extractStridedSlice S511 ![1] · slices_S512_S511_1) : (⟨S512, .i32⟩ : BufTy).Contents (Elt F) → (⟨S511, .i32⟩ : BufTy).Contents (Elt F)),
    StableHlo.unary main_v9 main_v12 ((extractStridedSlice S511 ![0] · slices_S512_S511_0) : (⟨S512, .i32⟩ : BufTy).Contents (Elt F) → (⟨S511, .i32⟩ : BufTy).Contents (Elt F)),
    StableHlo.binary main_v11 main_v12 main_v13 (cmpi .ne : (⟨S511, .i32⟩ : BufTy).Contents (Elt F) → (⟨S511, .i32⟩ : BufTy).Contents (Elt F) → (⟨S511, .i1⟩ : BufTy).Contents (Elt F)),
    StableHlo.unary main_v13 main_v14 ((extui 32 · natLt_1_32) : (⟨S511, .i1⟩ : BufTy).Contents (Elt F) → (⟨S511, .i32⟩ : BufTy).Contents (Elt F)),
    StableHlo.binary main_v10 main_v14 main_v15 ((fun a b => concatenate S512 0 [⟨S1, a⟩, ⟨S511, b⟩] concatenates_S1_S511_S512_d0) : (⟨S1, .i32⟩ : BufTy).Contents (Elt F) → (⟨S511, .i32⟩ : BufTy).Contents (Elt F) → (⟨S512, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v15) main_call1.call0.v0 main_call1.call0.v1 (fun x v => Host.reduceWindow IntOp.addi ![512] ![1] ![511] ![0] x v reduceWindows_S512_S512_w512s1p511_0 h_S_) ]

/-- The next twenty-five: the rows averaged within the first mask's runs (scatter-add, the count, the quotient, the gather back). -/
abbrev opsC : List (HloOp τ sig (Elt F)) :=
  [ StableHlo.nullary main_cst (constant S_ .f32 0x00000000#32),
    StableHlo.unary main_cst main_v17 (broadcastInDim S512x512x256 ![] bcast_S_S512x512x256 : (⟨S_, .f32⟩ : BufTy).Contents (Elt F) → (⟨S512x512x256, .f32⟩ : BufTy).Contents (Elt F)),
    StableHlo.unary main_v8 main_v18 (broadcastInDim S512x1 ![0] bcast_S512_S512x1_0 : (⟨S512, .i32⟩ : BufTy).Contents (Elt F) → (⟨S512x1, .i32⟩ : BufTy).Contents (Elt F)),
    StableHlo.ternary main_v17 main_v18 main_v0 main_v19 ((fun x i u => Host.scatterAdd scatter_S512x512x256_S512x1_S512x512x256_12_0_0_1 x i u) : (⟨S512x512x256, .f32⟩ : BufTy).Contents (Elt F) → (⟨S512x1, .i32⟩ : BufTy).Contents (Elt F) → (⟨S512x512x256, .f32⟩ : BufTy).Contents (Elt F) → (⟨S512x512x256, .f32⟩ : BufTy).Contents (Elt F)),
    StableHlo.nullary main_cst_1 (constant S_ .f32 0x3F800000#32),
    StableHlo.unary main_cst_1 main_v20 (broadcastInDim S512 ![] bcast_S_S512 : (⟨S_, .f32⟩ : BufTy).Contents (Elt F) → (⟨S512, .f32⟩ : BufTy).Contents (Elt F)),
    StableHlo.nullary main_cst_2 (constant S_ .f32 0x00000000#32),
    StableHlo.unary main_cst_2 main_v21 (broadcastInDim S512 ![] bcast_S_S512 : (⟨S_, .f32⟩ : BufTy).Contents (Elt F) → (⟨S512, .f32⟩ : BufTy).Contents (Elt F)),
    StableHlo.unary main_v8 main_v22 (broadcastInDim S512x1 ![0] bcast_S512_S512x1_0 : (⟨S512, .i32⟩ : BufTy).Contents (Elt F) → (⟨S512x1, .i32⟩ : BufTy).Contents (Elt F)),
    StableHlo.ternary main_v21 main_v22 main_v20 main_v23 ((fun x i u => Host.scatterAdd scatter_S512_S512x1_S512_n_0_0_1 x i u) : (⟨S512, .f32⟩ : BufTy).Contents (Elt F) → (⟨S512x1, .i32⟩ : BufTy).Contents (Elt F) → (⟨S512, .f32⟩ : BufTy).Contents (Elt F) → (⟨S512, .f32⟩ : BufTy).Contents (Elt F)),
    StableHlo.nullary main_cst_3 (constant S_ .f32 0x3F800000#32),
    StableHlo.unary main_cst_3 main_v24 (broadcastInDim S512 ![] bcast_S_S512 : (⟨S_, .f32⟩ : BufTy).Contents (Elt F) → (⟨S512, .f32⟩ : BufTy).Contents (Elt F)),
    StableHlo.binary main_v23 main_v24 main_v25 (maximumf : (⟨S512, .f32⟩ : BufTy).Contents (Elt F) → (⟨S512, .f32⟩ : BufTy).Contents (Elt F) → (⟨S512, .f32⟩ : BufTy).Contents (Elt F)),
    StableHlo.unary main_v25 main_v26 (broadcastInDim S512x1x1 ![0] bcast_S512_S512x1x1_0 : (⟨S512, .f32⟩ : BufTy).Contents (Elt F) → (⟨S512x1x1, .f32⟩ : BufTy).Contents (Elt F)),
    StableHlo.unary main_v26 main_v27 (broadcastInDim S512x512x256 ![0, 1, 2] bcast_S512x1x1_S512x512x256_0_1_2 : (⟨S512x1x1, .f32⟩ : BufTy).Contents (Elt F) → (⟨S512x512x256, .f32⟩ : BufTy).Contents (Elt F)),
    StableHlo.binary main_v19 main_v27 main_v28 (Host.divf : (⟨S512x512x256, .f32⟩ : BufTy).Contents (Elt F) → (⟨S512x512x256, .f32⟩ : BufTy).Contents (Elt F) → (⟨S512x512x256, .f32⟩ : BufTy).Contents (Elt F)),
    StableHlo.nullary main_c_4 (constantI S_ 32 0#32),
    StableHlo.unary main_c_4 main_v29 (broadcastInDim S512 ![] bcast_S_S512 : (⟨S_, .i32⟩ : BufTy).Contents (Elt F) → (⟨S512, .i32⟩ : BufTy).Contents (Elt F)),
    StableHlo.binary main_v8 main_v29 main_v30 (cmpi .slt : (⟨S512, .i32⟩ : BufTy).Contents (Elt F) → (⟨S512, .i32⟩ : BufTy).Contents (Elt F) → (⟨S512, .i1⟩ : BufTy).Contents (Elt F)),
    StableHlo.nullary main_c_5 (constantI S_ 32 512#32),
    StableHlo.unary main_c_5 main_v31 (broadcastInDim S512 ![] bcast_S_S512 : (⟨S_, .i32⟩ : BufTy).Contents (Elt F) → (⟨S512, .i32⟩ : BufTy).Contents (Elt F)),
    StableHlo.binary main_v8 main_v31 main_v32 (addi : (⟨S512, .i32⟩ : BufTy).Contents (Elt F) → (⟨S512, .i32⟩ : BufTy).Contents (Elt F) → (⟨S512, .i32⟩ : BufTy).Contents (Elt F)),
    StableHlo.ternary main_v30 main_v32 main_v8 main_v33 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v33 main_v34 (broadcastInDim S512x1 ![0] bcast_S512_S512x1_0 : (⟨S512, .i32⟩ : BufTy).Contents (Elt F) → (⟨S512x1, .i32⟩ : BufTy).Contents (Elt F)),
    StableHlo.binary main_v28 main_v34 main_v35 ((fun x i => Host.gather gather_S512x512x256_S512x1_S512x512x256_12_0_n_n_0_1_1512256 x i) : (⟨S512x512x256, .f32⟩ : BufTy).Contents (Elt F) → (⟨S512x1, .i32⟩ : BufTy).Contents (Elt F) → (⟨S512x512x256, .f32⟩ : BufTy).Contents (Elt F)) ]

/-- The next twenty-six: the transpose and the rows averaged within the second mask's runs. -/
abbrev opsD : List (HloOp τ sig (Elt F)) :=
  [ StableHlo.unary main_v35 main_v36 ((transpose S512x512x256 [1, 0, 2] · transposes_S512x512x256_S512x512x256_1_0_2) : (⟨S512x512x256, .f32⟩ : BufTy).Contents (Elt F) → (⟨S512x512x256, .f32⟩ : BufTy).Contents (Elt F)),
    StableHlo.nullary main_cst_6 (constant S_ .f32 0x00000000#32),
    StableHlo.unary main_cst_6 main_v37 (broadcastInDim S512x512x256 ![] bcast_S_S512x512x256 : (⟨S_, .f32⟩ : BufTy).Contents (Elt F) → (⟨S512x512x256, .f32⟩ : BufTy).Contents (Elt F)),
    StableHlo.unary main_v16 main_v38 (broadcastInDim S512x1 ![0] bcast_S512_S512x1_0 : (⟨S512, .i32⟩ : BufTy).Contents (Elt F) → (⟨S512x1, .i32⟩ : BufTy).Contents (Elt F)),
    StableHlo.ternary main_v37 main_v38 main_v36 main_v39 ((fun x i u => Host.scatterAdd scatter_S512x512x256_S512x1_S512x512x256_12_0_0_1 x i u) : (⟨S512x512x256, .f32⟩ : BufTy).Contents (Elt F) → (⟨S512x1, .i32⟩ : BufTy).Contents (Elt F) → (⟨S512x512x256, .f32⟩ : BufTy).Contents (Elt F) → (⟨S512x512x256, .f32⟩ : BufTy).Contents (Elt F)),
    StableHlo.nullary main_cst_7 (constant S_ .f32 0x3F800000#32),
    StableHlo.unary main_cst_7 main_v40 (broadcastInDim S512 ![] bcast_S_S512 : (⟨S_, .f32⟩ : BufTy).Contents (Elt F) → (⟨S512, .f32⟩ : BufTy).Contents (Elt F)),
    StableHlo.nullary main_cst_8 (constant S_ .f32 0x00000000#32),
    StableHlo.unary main_cst_8 main_v41 (broadcastInDim S512 ![] bcast_S_S512 : (⟨S_, .f32⟩ : BufTy).Contents (Elt F) → (⟨S512, .f32⟩ : BufTy).Contents (Elt F)),
    StableHlo.unary main_v16 main_v42 (broadcastInDim S512x1 ![0] bcast_S512_S512x1_0 : (⟨S512, .i32⟩ : BufTy).Contents (Elt F) → (⟨S512x1, .i32⟩ : BufTy).Contents (Elt F)),
    StableHlo.ternary main_v41 main_v42 main_v40 main_v43 ((fun x i u => Host.scatterAdd scatter_S512_S512x1_S512_n_0_0_1 x i u) : (⟨S512, .f32⟩ : BufTy).Contents (Elt F) → (⟨S512x1, .i32⟩ : BufTy).Contents (Elt F) → (⟨S512, .f32⟩ : BufTy).Contents (Elt F) → (⟨S512, .f32⟩ : BufTy).Contents (Elt F)),
    StableHlo.nullary main_cst_9 (constant S_ .f32 0x3F800000#32),
    StableHlo.unary main_cst_9 main_v44 (broadcastInDim S512 ![] bcast_S_S512 : (⟨S_, .f32⟩ : BufTy).Contents (Elt F) → (⟨S512, .f32⟩ : BufTy).Contents (Elt F)),
    StableHlo.binary main_v43 main_v44 main_v45 (maximumf : (⟨S512, .f32⟩ : BufTy).Contents (Elt F) → (⟨S512, .f32⟩ : BufTy).Contents (Elt F) → (⟨S512, .f32⟩ : BufTy).Contents (Elt F)),
    StableHlo.unary main_v45 main_v46 (broadcastInDim S512x1x1 ![0] bcast_S512_S512x1x1_0 : (⟨S512, .f32⟩ : BufTy).Contents (Elt F) → (⟨S512x1x1, .f32⟩ : BufTy).Contents (Elt F)),
    StableHlo.unary main_v46 main_v47 (broadcastInDim S512x512x256 ![0, 1, 2] bcast_S512x1x1_S512x512x256_0_1_2 : (⟨S512x1x1, .f32⟩ : BufTy).Contents (Elt F) → (⟨S512x512x256, .f32⟩ : BufTy).Contents (Elt F)),
    StableHlo.binary main_v39 main_v47 main_v48 (Host.divf : (⟨S512x512x256, .f32⟩ : BufTy).Contents (Elt F) → (⟨S512x512x256, .f32⟩ : BufTy).Contents (Elt F) → (⟨S512x512x256, .f32⟩ : BufTy).Contents (Elt F)),
    StableHlo.nullary main_c_10 (constantI S_ 32 0#32),
    StableHlo.unary main_c_10 main_v49 (broadcastInDim S512 ![] bcast_S_S512 : (⟨S_, .i32⟩ : BufTy).Contents (Elt F) → (⟨S512, .i32⟩ : BufTy).Contents (Elt F)),
    StableHlo.binary main_v16 main_v49 main_v50 (cmpi .slt : (⟨S512, .i32⟩ : BufTy).Contents (Elt F) → (⟨S512, .i32⟩ : BufTy).Contents (Elt F) → (⟨S512, .i1⟩ : BufTy).Contents (Elt F)),
    StableHlo.nullary main_c_11 (constantI S_ 32 512#32),
    StableHlo.unary main_c_11 main_v51 (broadcastInDim S512 ![] bcast_S_S512 : (⟨S_, .i32⟩ : BufTy).Contents (Elt F) → (⟨S512, .i32⟩ : BufTy).Contents (Elt F)),
    StableHlo.binary main_v16 main_v51 main_v52 (addi : (⟨S512, .i32⟩ : BufTy).Contents (Elt F) → (⟨S512, .i32⟩ : BufTy).Contents (Elt F) → (⟨S512, .i32⟩ : BufTy).Contents (Elt F)),
    StableHlo.ternary main_v50 main_v52 main_v16 main_v53 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v53 main_v54 (broadcastInDim S512x1 ![0] bcast_S512_S512x1_0 : (⟨S512, .i32⟩ : BufTy).Contents (Elt F) → (⟨S512x1, .i32⟩ : BufTy).Contents (Elt F)),
    StableHlo.binary main_v48 main_v54 main_v55 ((fun x i => Host.gather gather_S512x512x256_S512x1_S512x512x256_12_0_n_n_0_1_1512256 x i) : (⟨S512x512x256, .f32⟩ : BufTy).Contents (Elt F) → (⟨S512x1, .i32⟩ : BufTy).Contents (Elt F) → (⟨S512x512x256, .f32⟩ : BufTy).Contents (Elt F)) ]

/-- The last two: the transpose back and the unit axis restored. -/
abbrev opsE : List (HloOp τ sig (Elt F)) :=
  [ StableHlo.unary main_v55 main_v56 ((transpose S512x512x256 [1, 0, 2] · transposes_S512x512x256_S512x512x256_1_0_2) : (⟨S512x512x256, .f32⟩ : BufTy).Contents (Elt F) → (⟨S512x512x256, .f32⟩ : BufTy).Contents (Elt F)),
    StableHlo.unary main_v56 main_v57 (broadcastInDim S1x512x512x256 ![1, 2, 3] bcast_S512x512x256_S1x512x512x256_1_2_3 : (⟨S512x512x256, .f32⟩ : BufTy).Contents (Elt F) → (⟨S1x512x512x256, .f32⟩ : BufTy).Contents (Elt F)) ]

theorem ops_eq : (ops : List (HloOp τ sig (Elt F))) = opsA ++ (opsB ++ (opsC ++ (opsD ++ opsE))) := rfl

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### What each stage leaves untouched -/

theorem A_arg0 (W : Valuation τ sig (Elt F)) : after opsA W (main_arg0 : DevRef τ sig) = W (main_arg0 : DevRef τ sig) := by
  after_results_simp
theorem A_arg1 (W : Valuation τ sig (Elt F)) : after opsA W (main_arg1 : DevRef τ sig) = W (main_arg1 : DevRef τ sig) := by
  after_results_simp
theorem A_arg2 (W : Valuation τ sig (Elt F)) : after opsA W (main_arg2 : DevRef τ sig) = W (main_arg2 : DevRef τ sig) := by
  after_results_simp

theorem B_arg0 (W : Valuation τ sig (Elt F)) : after opsB W (main_arg0 : DevRef τ sig) = W (main_arg0 : DevRef τ sig) := by
  after_results_simp
theorem B_arg1 (W : Valuation τ sig (Elt F)) : after opsB W (main_arg1 : DevRef τ sig) = W (main_arg1 : DevRef τ sig) := by
  after_results_simp
theorem B_arg2 (W : Valuation τ sig (Elt F)) : after opsB W (main_arg2 : DevRef τ sig) = W (main_arg2 : DevRef τ sig) := by
  after_results_simp
theorem B_v0 (W : Valuation τ sig (Elt F)) : after opsB W (main_v0 : DevRef τ sig) = W (main_v0 : DevRef τ sig) := by
  after_results_simp
theorem B_v8 (W : Valuation τ sig (Elt F)) : after opsB W (main_v8 : DevRef τ sig) = W (main_v8 : DevRef τ sig) := by
  after_results_simp

theorem C_arg0 (W : Valuation τ sig (Elt F)) : after opsC W (main_arg0 : DevRef τ sig) = W (main_arg0 : DevRef τ sig) := by
  after_results_simp
theorem C_arg1 (W : Valuation τ sig (Elt F)) : after opsC W (main_arg1 : DevRef τ sig) = W (main_arg1 : DevRef τ sig) := by
  after_results_simp
theorem C_arg2 (W : Valuation τ sig (Elt F)) : after opsC W (main_arg2 : DevRef τ sig) = W (main_arg2 : DevRef τ sig) := by
  after_results_simp
theorem C_v16 (W : Valuation τ sig (Elt F)) : after opsC W (main_v16 : DevRef τ sig) = W (main_v16 : DevRef τ sig) := by
  after_results_simp

theorem D_arg0 (W : Valuation τ sig (Elt F)) : after opsD W (main_arg0 : DevRef τ sig) = W (main_arg0 : DevRef τ sig) := by
  after_results_simp
theorem D_arg1 (W : Valuation τ sig (Elt F)) : after opsD W (main_arg1 : DevRef τ sig) = W (main_arg1 : DevRef τ sig) := by
  after_results_simp
theorem D_arg2 (W : Valuation τ sig (Elt F)) : after opsD W (main_arg2 : DevRef τ sig) = W (main_arg2 : DevRef τ sig) := by
  after_results_simp

theorem E_arg0 (W : Valuation τ sig (Elt F)) : after opsE W (main_arg0 : DevRef τ sig) = W (main_arg0 : DevRef τ sig) := by
  after_results_simp
theorem E_arg1 (W : Valuation τ sig (Elt F)) : after opsE W (main_arg1 : DevRef τ sig) = W (main_arg1 : DevRef τ sig) := by
  after_results_simp
theorem E_arg2 (W : Valuation τ sig (Elt F)) : after opsE W (main_arg2 : DevRef τ sig) = W (main_arg2 : DevRef τ sig) := by
  after_results_simp

/-! ### What each stage computes -/

theorem A_v0 (W : Valuation τ sig (Elt F)) :
    after opsA W (main_v0 : DevRef τ sig) = shapeCast Cert.Stripe.S512x512x256 (W (main_arg0 : DevRef τ sig)) Cert.Stripe.shapeCasts_S1x512x512x256_S512x512x256 := by
  after_results_simp
  rfl

attribute [local irreducible] Host.reduceWindow in
/-- The first mask's run numbers: the indicator of a change, then its running sum. -/
theorem A_v8 (W : Valuation τ sig (Elt F)) :
    after opsA W (main_v8 : DevRef τ sig) = Cert.Stripe.segIds (W (main_arg1 : DevRef τ sig)) := by
  after_results_simp
  rfl

attribute [local irreducible] Host.reduceWindow in
/-- The second mask's run numbers. -/
theorem B_v16 (W : Valuation τ sig (Elt F)) :
    after opsB W (main_v16 : DevRef τ sig) = Cert.Stripe.segIds (W (main_arg2 : DevRef τ sig)) := by
  after_results_simp
  rfl

attribute [local irreducible] Host.scatterAdd Host.gather in
/-- The rows averaged within the first mask's runs. -/
theorem C_v35 (W : Valuation τ sig (Elt F)) :
    after opsC W (main_v35 : DevRef τ sig) = Cert.Stripe.meanRows (W (main_v0 : DevRef τ sig)) (W (main_v8 : DevRef τ sig)) := by
  after_results_simp
  rfl

attribute [local irreducible] Host.scatterAdd Host.gather in
/-- The first two axes swapped and the rows averaged within the second mask's runs. -/
theorem D_v55 (W : Valuation τ sig (Elt F)) :
    after opsD W (main_v55 : DevRef τ sig)
      = Cert.Stripe.meanRows (transpose Cert.Stripe.S512x512x256 [1, 0, 2] (W (main_v35 : DevRef τ sig)) Cert.Stripe.transposes_S512x512x256_S512x512x256_1_0_2)
          (W (main_v16 : DevRef τ sig)) := by
  after_results_simp
  rfl

theorem E_v57 (W : Valuation τ sig (Elt F)) :
    after opsE W (main_v57 : DevRef τ sig)
      = broadcastInDim Cert.Stripe.S1x512x512x256 ![1, 2, 3] Cert.Stripe.bcast_S512x512x256_S1x512x512x256_1_2_3
          (transpose Cert.Stripe.S512x512x256 [1, 0, 2] (W (main_v55 : DevRef τ sig)) Cert.Stripe.transposes_S512x512x256_S512x512x256_1_0_2) := by
  after_results_simp

/-! ## The result -/

/-- The fold read at the result buffer is the scatter / gather form of the average of the three arguments: the stages
    composed, each read at the buffers the next one takes. -/
theorem out_eq (V : Valuation τ sig (Elt F)) :
    after ops V (main_v57 : DevRef τ sig)
      = Cert.Stripe.refOut (V (main_arg0 : DevRef τ sig)) (V (main_arg1 : DevRef τ sig)) (V (main_arg2 : DevRef τ sig)) := by
  rw [ops_eq, after_app, after_app, after_app, after_app, E_v57, D_v55, C_v35, C_v16, B_v16, B_v0, B_v8, A_v0, A_v8, A_arg2]
  rfl

/-- No operation writes an argument's buffer. -/
theorem arg0_eq (V : Valuation τ sig (Elt F)) : after ops V (main_arg0 : DevRef τ sig) = V (main_arg0 : DevRef τ sig) := by
  rw [ops_eq, after_app, after_app, after_app, after_app, E_arg0, D_arg0, C_arg0, B_arg0, A_arg0]
theorem arg1_eq (V : Valuation τ sig (Elt F)) : after ops V (main_arg1 : DevRef τ sig) = V (main_arg1 : DevRef τ sig) := by
  rw [ops_eq, after_app, after_app, after_app, after_app, E_arg1, D_arg1, C_arg1, B_arg1, A_arg1]
theorem arg2_eq (V : Valuation τ sig (Elt F)) : after ops V (main_arg2 : DevRef τ sig) = V (main_arg2 : DevRef τ sig) := by
  rw [ops_eq, after_app, after_app, after_app, after_app, E_arg2, D_arg2, C_arg2, B_arg2, A_arg2]

/-- For any float values, from any memory with zero counters: every weakly fair execution of @main terminates with the
    result buffer at the scatter / gather form of the average of the three arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = Cert.Stripe.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (out_eq _),
      (h c main_arg0).trans (arg0_eq _),
      (h c main_arg1).trans (arg1_eq _),
      (h c main_arg2).trans (arg2_eq _)⟩)
    (run_main m ρ)

end Cert.ReferenceIdeal.RefRun

end
-- ==== Proof.lean ====
/-
  The certificate: a kernel that averages a [1, 512, 512, 256] image within the stripes two 0/1 masks cut along its
  rows and along its columns, against the reference that does the same with segment sums.

  Both programs number each mask's maximal runs of equal value by a running count of the value changes
  (`Cert.Stripe.segIds`; the count stays in [0, 511], so no wrap-around and no negative index: Proof/SegIds.lean).
  The reference scatter-adds the rows into one slot per run, divides each slot by its count, and gathers each row's slot
  back, once along each of the two axes (`Cert.Stripe.refOut`: its run is read back in Proof/RefRun.lean, and
  Proof/MeanRows.lean, Proof/RefValue.lean read it entry by entry as the mean over the run).  The kernel multiplies by
  the 0/1 matrix "same run" and by the column of reciprocal run lengths in two pipelines of matrix products, the first
  over 32 column blocks of the flattened image, the second over 32 groups of sixteen rows (Proof/KRows.lean,
  Proof/KCols.lean: each pipeline's output array as one function of its input arrays; Proof/KHost.lean: the host
  operations around them; Proof/KValue.lean: the composition).  On the extended reals 0 · x = 0 and 1 · x = x for every
  x, and multiplying by one over a positive real count is dividing by it (Proof/KGlue.lean), so both results are the
  same function of the arguments, `Cert.Stripe.pooled` — with no use of the inputs' finiteness.  The idealization
  rewrote nothing, so its claim is trivial; the three frames are the generated frame proofs and the reference's run.
-/
import proofs.«140911_j5549097747077_2_alg».proof.Defs
import proofs.«140911_j5549097747077_2_alg».proof.Proof.Gen.Kernel
import proofs.«140911_j5549097747077_2_alg».proof.Proof.Gen.Kernel.Frame
import proofs.«140911_j5549097747077_2_alg».proof.Proof.Gen.KernelIdeal
import proofs.«140911_j5549097747077_2_alg».proof.Proof.Gen.KernelIdeal.Frame
import proofs.«140911_j5549097747077_2_alg».proof.Proof.Gen.ReferenceIdeal
import proofs.«140911_j5549097747077_2_alg».proof.Proof.Gen.Pre_finite_inputs
import proofs.«140911_j5549097747077_2_alg».proof.Proof.KValue
import proofs.«140911_j5549097747077_2_alg».proof.Proof.RefRun
import proofs.«140911_j5549097747077_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments the kernel's result array ends at the stripe-wise average of its arguments
    and the reference's at the scatter / gather form of the same arguments, which is that average entry by entry. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.Stripe.refOut_eq_pooled _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
